-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S2x128x128 : Shape := ⟨3, ![2, 128, 128]⟩
abbrev S2x128 : Shape := ⟨2, ![2, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  main_v43

def fn_part1 {F : FTy → Type} [FloatOps F] (main_arg5 : FVec F S2x128 .f32) (main_arg6 : FVec F S2x128x128 .f32) (main_arg7 : FVec F S128x128 .f32) (main_arg8 : FVec F S128 .f32) (main_arg9 : FVec F S128x128 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg5
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128x128 .f32 := Host.absf main_arg6
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S2x128x128 .f32) (main_arg3 : FVec F S2x128 .f32) (main_arg4 : FVec F S2x128x128 .f32) (main_arg5 : FVec F S2x128 .f32) (main_arg6 : FVec F S2x128x128 .f32) (main_arg7 : FVec F S128x128 .f32) (main_arg8 : FVec F S128 .f32) (main_arg9 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S2x128x128 .f32 := Host.absf main_arg2
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S2x128 .f32 := Host.absf main_arg3
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S2x128x128 .f32 := Host.absf main_arg4
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S2x128x128 : Shape := ⟨3, ![2, 128, 128]⟩
abbrev S2x128 : Shape := ⟨2, ![2, 128]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128x128 : Shape := ⟨3, ![1, 128, 128]⟩
abbrev S1x128 : Shape := ⟨2, ![1, 128]⟩
abbrev S5000x128 : Shape := ⟨2, ![5000, 128]⟩
abbrev S1600000x128 : Shape := ⟨2, ![1600000, 128]⟩
abbrev S5000x1 : Shape := ⟨2, ![5000, 1]⟩
abbrev S5000 : Shape := ⟨1, ![5000]⟩

abbrev nBuf : Space → Nat
  | .hbm => 100
  | .vmem => 45
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x128x128, .f32⟩
  | .hbm, ⟨3, _⟩ => ⟨S2x128, .f32⟩
  | .hbm, ⟨4, _⟩ => ⟨S2x128x128, .f32⟩
  | .hbm, ⟨5, _⟩ => ⟨S2x128, .f32⟩
  | .hbm, ⟨6, _⟩ => ⟨S2x128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S1x128x128, .f32⟩
  | .hbm, ⟨28, _⟩ => ⟨S128x128, .f32⟩
  | .hbm, ⟨29, _⟩ => ⟨S1x128, .f32⟩
  | .hbm, ⟨30, _⟩ => ⟨S128, .f32⟩
  | .hbm, ⟨31, _⟩ => ⟨S1x128, .f32⟩
  | .hbm, ⟨32, _⟩ => ⟨S100000x128, .bf16⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .bf16⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S1x128x128, .f32⟩
  | .hbm, ⟨48, _⟩ => ⟨S128x128, .f32⟩
  | .hbm, ⟨49, _⟩ => ⟨S1x128, .f32⟩
  | .hbm, ⟨50, _⟩ => ⟨S128, .f32⟩
  | .hbm, ⟨51, _⟩ => ⟨S1x128x128, .f32⟩
  | .hbm, ⟨52, _⟩ => ⟨S128x128, .f32⟩
  | .hbm, ⟨53, _⟩ => ⟨S1x128, .f32⟩
  | .hbm, ⟨54, _⟩ => ⟨S100000x128, .f32⟩
  | .hbm, ⟨55, _⟩ => ⟨S1x128x128, .f32⟩
  | .hbm, ⟨56, _⟩ => ⟨S128x128, .f32⟩
  | .hbm, ⟨57, _⟩ => ⟨S1x128, .f32⟩
  | .hbm, ⟨58, _⟩ => ⟨S128, .f32⟩
  | .hbm, ⟨59, _⟩ => ⟨S1x128, .f32⟩
  | .hbm, ⟨60, _⟩ => ⟨S100000x128, .bf16⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .bf16⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S1x128x128, .f32⟩
  | .hbm, ⟨76, _⟩ => ⟨S128x128, .f32⟩
  | .hbm, ⟨77, _⟩ => ⟨S1x128, .f32⟩
  | .hbm, ⟨78, _⟩ => ⟨S128, .f32⟩
  | .hbm, ⟨79, _⟩ => ⟨S1x128x128, .f32⟩
  | .hbm, ⟨80, _⟩ => ⟨S128x128, .f32⟩
  | .hbm, ⟨81, _⟩ => ⟨S1x128, .f32⟩
  | .hbm, ⟨82, _⟩ => ⟨S100000x128, .f32⟩
  | .hbm, ⟨83, _⟩ => ⟨S100000x128, .bf16⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x128, .bf16⟩
  | .hbm, ⟨93, _⟩ => ⟨S1600000x128, .f32⟩
  | .hbm, ⟨94, _⟩ => ⟨S_, .f32⟩
  | .hbm, ⟨95, _⟩ => ⟨S100000x128, .f32⟩
  | .hbm, ⟨96, _⟩ => ⟨S1600000x1, .i32⟩
  | .hbm, ⟨97, _⟩ => ⟨S100000x128, .f32⟩
  | .hbm, ⟨98, _⟩ => ⟨S1x128, .f32⟩
  | .hbm, ⟨99, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .bf16⟩
  | .local _ .vmem, ⟨5, _⟩ => ⟨S5000x128, .bf16⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S1x128, .f32⟩
  | .local _ .vmem, ⟨21, _⟩ => ⟨S5000x128, .bf16⟩
  | .local _ .vmem, ⟨22, _⟩ => ⟨S5000x128, .bf16⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x1, .f32⟩
  | .local _ .vmem, ⟨28, _⟩ => ⟨S5000x1, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x1, .f32⟩
  | .local _ .vmem, ⟨39, _⟩ => ⟨S5000x1, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S5000x128, .f32⟩
  | .local _ .vmem, ⟨44, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_5 : Ref sig .tc := ⟨.hbm, 61, rfl⟩
abbrev main_v44 : Ref sig .tc := ⟨.hbm, 62, rfl⟩
abbrev main_v45 : Ref sig .tc := ⟨.hbm, 63, rfl⟩
abbrev main_c_6 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_8 : Ref sig .tc := ⟨.hbm, 84, rfl⟩
abbrev main_v64 : Ref sig .tc := ⟨.hbm, 85, rfl⟩
abbrev main_v65 : Ref sig .tc := ⟨.hbm, 86, rfl⟩
abbrev main_c_9 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_10 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg6_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem6_1 : DmaSem sig := 44

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  reduces_S5000x128_S5000 : S5000x128.Reduces [1] S5000
  shapeCasts_S5000_S5000x1 : S5000.ShapeCasts S5000x1
  slices_S2x128x128_S1x128x128_1_0_0 : S2x128x128.Slices ![1, 0, 0] S1x128x128
  slices_S2x128_S1x128_1_0 : S2x128.Slices ![1, 0] S1x128
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .bf16 = 32 ∨ (Rect.block (s := S100000x128) S5000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v54) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v56) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v62) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v74) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg7) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v75) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg9) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v76) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S2x128x128 : Shape := ⟨3, ![2, 128, 128]⟩
abbrev S2x128 : Shape := ⟨2, ![2, 128]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128x128 : Shape := ⟨3, ![1, 128, 128]⟩
abbrev S1x128 : Shape := ⟨2, ![1, 128]⟩
abbrev S1600000x128 : Shape := ⟨2, ![1600000, 128]⟩

abbrev nBuf : Space → Nat
  | .hbm => 158
  | .vmem => 0
  | .smem => 0
  | _ => 0

abbrev hbmTy0_0 (i : Nat) : BufTy := match i % 128 with
  | 0 => ⟨S100000x128, .f32⟩
  | 1 => ⟨S2x1600000, .i32⟩
  | 2 => ⟨S2x128x128, .f32⟩
  | 3 => ⟨S2x128, .f32⟩
  | 4 => ⟨S2x128x128, .f32⟩
  | 5 => ⟨S2x128, .f32⟩
  | 6 => ⟨S2x128x128, .f32⟩
  | 7 => ⟨S128x128, .f32⟩
  | 8 => ⟨S128, .f32⟩
  | 9 => ⟨S128x128, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S_, .f32⟩
  | 24 => ⟨S100000, .f32⟩
  | 25 => ⟨S100000, .f32⟩
  | 26 => ⟨S100000x1, .f32⟩
  | 27 => ⟨S1x128x128, .f32⟩
  | 28 => ⟨S128x128, .f32⟩
  | 29 => ⟨S1x128, .f32⟩
  | 30 => ⟨S128, .f32⟩
  | 31 => ⟨S1x128x128, .f32⟩
  | 32 => ⟨S128x128, .f32⟩
  | 33 => ⟨S1x128x128, .f32⟩
  | 34 => ⟨S128x128, .f32⟩
  | 35 => ⟨S1x128, .f32⟩
  | 36 => ⟨S128, .f32⟩
  | 37 => ⟨S128x128, .f32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S100000x128, .f32⟩
  | 44 => ⟨S100000x128, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000x128, .f32⟩
  | 59 => ⟨S100000x128, .f32⟩
  | 60 => ⟨S128x128, .f32⟩
  | 61 => ⟨S100000x128, .f32⟩
  | 62 => ⟨S1x128, .f32⟩
  | 63 => ⟨S100000x128, .f32⟩
  | 64 => ⟨S100000x128, .f32⟩
  | 65 => ⟨S128x128, .f32⟩
  | 66 => ⟨S100000x128, .f32⟩
  | 67 => ⟨S100000x128, .f32⟩
  | 68 => ⟨S100000x128, .f32⟩
  | 69 => ⟨S_, .f32⟩
  | 70 => ⟨S100000, .f32⟩
  | 71 => ⟨S100000x1, .f32⟩
  | 72 => ⟨S100000x1, .f32⟩
  | 73 => ⟨S_, .f32⟩
  | 74 => ⟨S100000x1, .f32⟩
  | 75 => ⟨S100000x1, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S1x128x128, .f32⟩
  | 82 => ⟨S128x128, .f32⟩
  | 83 => ⟨S1x128, .f32⟩
  | 84 => ⟨S128, .f32⟩
  | 85 => ⟨S1x128x128, .f32⟩
  | 86 => ⟨S128x128, .f32⟩
  | 87 => ⟨S1x128x128, .f32⟩
  | 88 => ⟨S128x128, .f32⟩
  | 89 => ⟨S1x128, .f32⟩
  | 90 => ⟨S128, .f32⟩
  | 91 => ⟨S128x128, .f32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S_, .f32⟩
  | 109 => ⟨S100000x128, .f32⟩
  | 110 => ⟨S1600000x1, .i32⟩
  | 111 => ⟨S100000x128, .f32⟩
  | 112 => ⟨S100000x128, .f32⟩
  | 113 => ⟨S100000x128, .f32⟩
  | 114 => ⟨S128x128, .f32⟩
  | 115 => ⟨S100000x128, .f32⟩
  | 116 => ⟨S1x128, .f32⟩
  | 117 => ⟨S100000x128, .f32⟩
  | 118 => ⟨S100000x128, .f32⟩
  | 119 => ⟨S128x128, .f32⟩
  | 120 => ⟨S100000x128, .f32⟩
  | 121 => ⟨S100000x128, .f32⟩
  | 122 => ⟨S100000x128, .f32⟩
  | 123 => ⟨S_, .f32⟩
  | 124 => ⟨S100000, .f32⟩
  | 125 => ⟨S100000x1, .f32⟩
  | 126 => ⟨S100000x1, .f32⟩
  | 127 => ⟨S_, .f32⟩
  | _ => ⟨S100000x128, .f32⟩

abbrev hbmTy0_1 (i : Nat) : BufTy := match i % 128 with
  | 0 => ⟨S100000x1, .f32⟩
  | 1 => ⟨S100000x1, .f32⟩
  | 2 => ⟨S100000x128, .f32⟩
  | 3 => ⟨S100000x128, .f32⟩
  | 4 => ⟨S_, .f32⟩
  | 5 => ⟨S100000x128, .f32⟩
  | 6 => ⟨S100000x128, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000x128, .f32⟩
  | 16 => ⟨S_, .f32⟩
  | 17 => ⟨S100000x128, .f32⟩
  | 18 => ⟨S1600000x1, .i32⟩
  | 19 => ⟨S100000x128, .f32⟩
  | 20 => ⟨S100000x128, .f32⟩
  | 21 => ⟨S100000x128, .f32⟩
  | 22 => ⟨S128x128, .f32⟩
  | 23 => ⟨S100000x128, .f32⟩
  | 24 => ⟨S1x128, .f32⟩
  | 25 => ⟨S100000x128, .f32⟩
  | 26 => ⟨S100000x128, .f32⟩
  | 27 => ⟨S128x128, .f32⟩
  | 28 => ⟨S100000x128, .f32⟩
  | 29 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_c : Ref sig .tc := ⟨.hbm, 45, rfl⟩
abbrev main_v29 : Ref sig .tc := ⟨.hbm, 46, rfl⟩
abbrev main_v30 : Ref sig .tc := ⟨.hbm, 47, rfl⟩
abbrev main_c_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_v0 : Ref sig .tc := ⟨.hbm, 68, rfl⟩
abbrev main_call1_cst : Ref sig .tc := ⟨.hbm, 69, rfl⟩
abbrev main_call1_v1 : Ref sig .tc := ⟨.hbm, 70, rfl⟩
abbrev main_call1_v2 : Ref sig .tc := ⟨.hbm, 71, rfl⟩
abbrev main_v49 : Ref sig .tc := ⟨.hbm, 72, rfl⟩
abbrev main_cst_5 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call2_cst : Ref sig .tc := ⟨.hbm, 78, rfl⟩
abbrev main_call2_v0 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_call3_cst : Ref sig .tc := ⟨.hbm, 96, rfl⟩
abbrev main_call3_v0 : Ref sig .tc := ⟨.hbm, 97, rfl⟩
abbrev main_v70 : Ref sig .tc := ⟨.hbm, 98, rfl⟩
abbrev main_c_6 : Ref sig .tc := ⟨.hbm, 99, rfl⟩
abbrev main_v71 : Ref sig .tc := ⟨.hbm, 100, rfl⟩
abbrev main_v72 : Ref sig .tc := ⟨.hbm, 101, rfl⟩
abbrev main_c_7 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_8 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_call4_v0 : Ref sig .tc := ⟨.hbm, 122, rfl⟩
abbrev main_call4_cst : Ref sig .tc := ⟨.hbm, 123, rfl⟩
abbrev main_call4_v1 : Ref sig .tc := ⟨.hbm, 124, rfl⟩
abbrev main_call4_v2 : Ref sig .tc := ⟨.hbm, 125, rfl⟩
abbrev main_v91 : Ref sig .tc := ⟨.hbm, 126, rfl⟩
abbrev main_cst_9 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_call5_cst : Ref sig .tc := ⟨.hbm, 132, rfl⟩
abbrev main_call5_v0 : Ref sig .tc := ⟨.hbm, 133, rfl⟩
abbrev main_v96 : Ref sig .tc := ⟨.hbm, 134, rfl⟩
abbrev main_c_10 : Ref sig .tc := ⟨.hbm, 135, rfl⟩
abbrev main_v97 : Ref sig .tc := ⟨.hbm, 136, rfl⟩
abbrev main_v98 : Ref sig .tc := ⟨.hbm, 137, rfl⟩
abbrev main_c_11 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_12 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  slices_S2x128x128_S1x128x128_1_0_0 : S2x128x128.Slices ![1, 0, 0] S1x128x128
  slices_S2x128_S1x128_1_0 : S2x128.Slices ![1, 0] S1x128
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KerRun.lean ====
/-
  The kernel program's run with its result named.

  The program is five pipelined regions among stretches of host operations. Its run goes through the buffer contents at
  each boundary: after a stretch of host operations the contents are those operations applied to the contents before;
  after a region its output array holds what the grid points wrote back and every other buffer is as it was. Every
  weakly fair execution terminates, and the final memory holds, at every unscoped buffer, the last boundary's
  contents: in particular at the program's result, while the arguments are as launched.
-/
import proofs.«161229_j45835890983353_2_alg».proof.Proof.Gen.KernelIdeal.Frame

set_option maxRecDepth 16384

noncomputable section

namespace Cert.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the arguments end as launched. -/
theorem run : θ_run defs (onTc (τ := τ) (main (F := F))) ⟨m, fun _ => 0, ρ⟩ (fun r => ∀ c : Dev nD,
      r.2.mem ((c.tc : Thread nD τ).loc main_v76) = W10 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v76 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KerRun

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.LibHostLayout.lean ====
/-
  Host layout operations of small rank read at an index.

  A reference written with keepdims and with a bias added along rows broadcasts in two steps: a vector `[a]` to a column
  `[a, 1]` and the column over the row `[a, b]`; a vector `[b]` to one row `[1, b]` and the row down the rows `[a, b]`. A
  leading block of rows is a slice at offset zero. Each is read here at an index built by `ix2`, in the style of the
  library's layout lemmas.
-/
import Idealize.ShloMosaic.Lib.Pipeline.Value
import Idealize.ShloMosaic.Lib.ValueIdx

noncomputable section

namespace Cert.LibHostLayout

open Idealize.ShloMosaic Idealize.ShloMosaic.ValueIdx

variable {α : Type}

/-- GENERAL LEMMA. An `[a]` array broadcast in dimension 0 to `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply ![0] h x (ix2 p u) (ix1 p) fun ax => by
    match ax with
    | ⟨0, _⟩ =>
      show p.val = if a = 1 then 0 else p.val
      split
      · have := p.isLt; omega
      · rfl

/-- GENERAL LEMMA. An `[a, 1]` column broadcast in dimensions (0, 1) to `[a, b]` reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply ![0, 1] h v (ix2 p c) (ix2 p (0 : Fin 1)) fun ax => by
    match ax with
    | ⟨0, _⟩ =>
      show p.val = if a = 1 then 0 else p.val
      split
      · have := p.isLt; omega
      · rfl
    | ⟨1, _⟩ => rfl

/-- GENERAL LEMMA. A `[b]` array broadcast in dimension 1 to `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) :=
  broadcastInDim_apply ![1] h x (ix2 u c) (ix1 c) fun ax => by
    match ax with
    | ⟨0, _⟩ =>
      show c.val = if b = 1 then 0 else c.val
      split
      · have := c.isLt; omega
      · rfl

/-- GENERAL LEMMA. A `[1, b]` row broadcast in dimensions (0, 1) to `[a, b]` reads, at `(p, c)`, the row at `(0, c)`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply ![0, 1] h v (ix2 p c) (ix2 (0 : Fin 1) c) fun ax => by
    match ax with
    | ⟨0, _⟩ => rfl
    | ⟨1, _⟩ =>
      show c.val = if b = 1 then 0 else c.val
      split
      · have := c.isLt; omega
      · rfl

/-- GENERAL LEMMA. The leading `m` rows of an `[n, b]` array, sliced at offset zero, read at `(p, c)` the array at `(p, c)`. -/
theorem slice_rows_apply {n m b : ℕ} (x : (⟨2, ![n, b]⟩ : Shape).Idx → α)
    (h : (⟨2, ![n, b]⟩ : Shape).Slices ![0, 0] ⟨2, ![m, b]⟩) (p : Fin m) (hp : p.val < n) (c : Fin b) :
    extractStridedSlice ⟨2, ![m, b]⟩ ![0, 0] x h (ix2 p c) = x (ix2 (⟨p.val, hp⟩ : Fin n) c) :=
  extractStridedSlice_apply ![0, 0] x h (ix2 p c) (ix2 (⟨p.val, hp⟩ : Fin n) c) fun ax => by
    match ax with
    | ⟨0, _⟩ => show p.val = 0 + p.val; omega
    | ⟨1, _⟩ => show c.val = 0 + c.val; omega

end Cert.LibHostLayout

end
-- ==== Proof.LibLayers.lean ====
/-
  The layers of the message-passing network as functions of whole arrays, and how the host's and the
  kernel's spellings of one layer read as those functions.

  A dense layer of an `n × d` array `X` with weights `W : d × h` and bias `b : h` has the entry
  `(∑ k, X (p, k) * W (k, q)) + b q` at `(p, q)`; `relu` is the entrywise maximum with zero. On the host the
  layer is a `dot_general` plus the bias broadcast first to one row and then down the rows; in a kernel body it is a
  matrix product into a zero accumulator plus the bias, held as a `1 × h` block, broadcast down the rows. Over the
  extended reals both are the same function, because a change of float format is the identity there.
  Every entry of a layer's result depends on one row of its input only, which is what lets a row block of the result
  be computed from the same row block of the input.
-/
import Idealize.ShloMosaic.PureOps.Ideal.Laws
import Idealize.ShloMosaic.Lib.Pipeline.Value
import Idealize.ShloMosaic.Lib.ValueIdx
import proofs.«161229_j45835890983353_2_alg».proof.Proof.LibDotSum
import proofs.«161229_j45835890983353_2_alg».proof.Proof.LibHostLayout

noncomputable section

namespace Cert.Layers

open Idealize.ShloMosaic Idealize.ShloMosaic.ValueIdx

/-- An `n × d` array of extended reals. -/
abbrev Mat (n d : ℕ) : Type := (⟨2, ![n, d]⟩ : Shape).Idx → EReal
/-- A vector of `d` extended reals. -/
abbrev Row (d : ℕ) : Type := (⟨1, ![d]⟩ : Shape).Idx → EReal

/-- The product of `X` with `W`: entry `(p, q)` is `∑ k, X (p, k) * W (k, q)`. -/
def mm {n d h : ℕ} (X : Mat n d) (W : Mat d h) : Mat n h :=
  fun i => ∑ k : Fin d, X (ix2 (i 0) k) * W (ix2 k (i 1))

/-- The bias `b` added to every row. -/
def addRow {n h : ℕ} (Y : Mat n h) (b : Row h) : Mat n h := fun i => Y i + b (ix1 (i 1))

/-- A dense layer: the product plus the bias on every row. -/
def dense {n d h : ℕ} (X : Mat n d) (W : Mat d h) (b : Row h) : Mat n h := addRow (mm X W) b

/-- The entrywise maximum with zero (zero kept as the float word it is printed as). -/
def relu {n h : ℕ} (Y : Mat n h) : Mat n h := fun i => max (Y i) (Ideal.ofBits .f32 0x00000000#32)

/-- The one row of a `1 × h` array, as a vector. -/
def rowOf {h : ℕ} (B : Mat 1 h) : Row h := fun i => B (ix2 (0 : Fin 1) (i 0))

/-! ## Each entry depends on one row of the input -/

theorem mm_row {n n' d h : ℕ} (X : Mat n d) (X' : Mat n' d) (W : Mat d h) (p : Fin n) (p' : Fin n') (q : Fin h)
    (hX : ∀ k : Fin d, X (ix2 p k) = X' (ix2 p' k)) : mm X W (ix2 p q) = mm X' W (ix2 p' q) := by
  unfold mm
  exact Finset.sum_congr rfl fun k _ => congrArg (· * W (ix2 k q)) (hX k)

theorem dense_row {n n' d h : ℕ} (X : Mat n d) (X' : Mat n' d) (W : Mat d h) (b : Row h) (p : Fin n) (p' : Fin n')
    (q : Fin h) (hX : ∀ k : Fin d, X (ix2 p k) = X' (ix2 p' k)) : dense X W b (ix2 p q) = dense X' W b (ix2 p' q) := by
  unfold dense addRow
  exact congrArg (· + b (ix1 q)) (mm_row X X' W p p' q hX)

theorem relu_row {n n' h : ℕ} (Y : Mat n h) (Y' : Mat n' h) (p : Fin n) (p' : Fin n') (q : Fin h)
    (hY : Y (ix2 p q) = Y' (ix2 p' q)) : relu Y (ix2 p q) = relu Y' (ix2 p' q) := by
  unfold relu
  exact congrArg (max · _) hY

/-! ## The host's spelling -/

/-- GENERAL LEMMA. The host's `dot_general` of a plain `[n, d] × [d, h]` record is the product. -/
theorem host_dot {n d h : ℕ} {φ₁ φ₂ : FTy}
    (D : DotDims (⟨2, ![n, d]⟩ : Shape) (⟨2, ![d, h]⟩ : Shape) (⟨2, ![n, h]⟩ : Shape))
    (hrank : D.contr.rank = 1) (hsize : D.contr.size ⟨0, by omega⟩ = d)
    (hl0 : ∀ (j : (⟨2, ![n, h]⟩ : Shape).Idx) (k : D.contr.Idx), (D.lhsIdx j k 0).val = (j 0).val)
    (hl1 : ∀ (j : (⟨2, ![n, h]⟩ : Shape).Idx) (k : D.contr.Idx), (D.lhsIdx j k 1).val = (k ⟨0, by omega⟩).val)
    (hr0 : ∀ (j : (⟨2, ![n, h]⟩ : Shape).Idx) (k : D.contr.Idx), (D.rhsIdx j k 0).val = (k ⟨0, by omega⟩).val)
    (hr1 : ∀ (j : (⟨2, ![n, h]⟩ : Shape).Idx) (k : D.contr.Idx), (D.rhsIdx j k 1).val = (j 1).val)
    (prec : Option ContractPrecision)
    (X : FVec Ideal (⟨2, ![n, d]⟩ : Shape) φ₁) (W : FVec Ideal (⟨2, ![d, h]⟩ : Shape) φ₂) :
    Host.dotGeneral D prec X W = mm X W := by
  funext j
  show FloatOps.dotGeneral D prec .single X W j = _
  rw [Ideal.dotGeneral_apply]
  exact Cert.LibDotSum.sum_contr_eq_sum_fin D hrank hsize hl0 hl1 hr0 hr1 X W j

/-- GENERAL LEMMA. The kernel's matrix product into a zero accumulator, of a plain record, is the product. -/
theorem kernel_matmul {n d h : ℕ} {φ₁ φ₂ : FTy}
    (D : DotDims (⟨2, ![n, d]⟩ : Shape) (⟨2, ![d, h]⟩ : Shape) (⟨2, ![n, h]⟩ : Shape))
    (hrank : D.contr.rank = 1) (hsize : D.contr.size ⟨0, by omega⟩ = d)
    (hl0 : ∀ (j : (⟨2, ![n, h]⟩ : Shape).Idx) (k : D.contr.Idx), (D.lhsIdx j k 0).val = (j 0).val)
    (hl1 : ∀ (j : (⟨2, ![n, h]⟩ : Shape).Idx) (k : D.contr.Idx), (D.lhsIdx j k 1).val = (k ⟨0, by omega⟩).val)
    (hr0 : ∀ (j : (⟨2, ![n, h]⟩ : Shape).Idx) (k : D.contr.Idx), (D.rhsIdx j k 0).val = (k ⟨0, by omega⟩).val)
    (hr1 : ∀ (j : (⟨2, ![n, h]⟩ : Shape).Idx) (k : D.contr.Idx), (D.rhsIdx j k 1).val = (j 1).val)
    (prec : Option ContractPrecision)
    (X : FVec Ideal (⟨2, ![n, d]⟩ : Shape) φ₁) (W : FVec Ideal (⟨2, ![d, h]⟩ : Shape) φ₂) :
    matmul D prec X W (constant (F := Ideal) (⟨2, ![n, h]⟩ : Shape) .f32 0x00000000#32) = mm X W := by
  funext j
  show FloatOps.matmul D prec X W (constant (F := Ideal) (⟨2, ![n, h]⟩ : Shape) .f32 0x00000000#32) j = _
  rw [Ideal.matmul_constant_zero_apply]
  exact Cert.LibDotSum.sum_contr_eq_sum_fin D hrank hsize hl0 hl1 hr0 hr1 X W j

/-- GENERAL LEMMA. The host's bias: a vector broadcast to one row and the row broadcast down the rows, added. -/
theorem host_addRow {n h : ℕ} (Y : FVec Ideal (⟨2, ![n, h]⟩ : Shape) .f32) (b : FVec Ideal (⟨1, ![h]⟩ : Shape) .f32)
    (h1 : (⟨1, ![h]⟩ : Shape).BroadcastsInDim ⟨2, ![1, h]⟩ ![1])
    (h2 : (⟨2, ![1, h]⟩ : Shape).BroadcastsInDim ⟨2, ![n, h]⟩ ![0, 1]) :
    addf Y (broadcastInDim ⟨2, ![n, h]⟩ ![0, 1] h2 (broadcastInDim ⟨2, ![1, h]⟩ ![1] h1 b)) = addRow Y b := by
  funext j
  obtain ⟨p, q, rfl⟩ : ∃ (p : Fin n) (q : Fin h), j = ix2 p q := ⟨j 0, j 1, eq_ix2 j⟩
  show Y (ix2 p q) + _ = Y (ix2 p q) + b (ix1 q)
  rw [Cert.LibHostLayout.broadcastInDim_1b_ab_apply, Cert.LibHostLayout.broadcastInDim_b_1b_apply]

/-- GENERAL LEMMA. The host's relu: the maximum with the zero constant broadcast to the array. -/
theorem host_relu {n h : ℕ} (Y : FVec Ideal (⟨2, ![n, h]⟩ : Shape) .f32)
    (h0 : (⟨0, ![]⟩ : Shape).BroadcastsInDim ⟨2, ![n, h]⟩ ![]) :
    maximumf Y (broadcastInDim ⟨2, ![n, h]⟩ ![] h0 (constant (F := Ideal) (⟨0, ![]⟩ : Shape) .f32 0x00000000#32)) = relu Y := by
  funext j
  show max (Y j) _ = max (Y j) _
  rw [broadcastInDim_apply ![] h0 _ j ix0 (fun a => a.elim0)]
  rfl

/-! ## The kernel's spelling -/

/-- GENERAL LEMMA. The kernel's bias: the `1 × h` block broadcast down the rows, added. -/
theorem kernel_addRow {n h : ℕ} (Y : FVec Ideal (⟨2, ![n, h]⟩ : Shape) .f32) (B : FVec Ideal (⟨2, ![1, h]⟩ : Shape) .f32)
    (hb : (⟨2, ![1, h]⟩ : Shape).Broadcasts ⟨2, ![n, h]⟩) :
    addf Y (broadcastTo ⟨2, ![n, h]⟩ B hb) = addRow Y (rowOf B) := by
  funext j
  obtain ⟨p, q, rfl⟩ : ∃ (p : Fin n) (q : Fin h), j = ix2 p q := ⟨j 0, j 1, eq_ix2 j⟩
  show Y (ix2 p q) + _ = Y (ix2 p q) + B (ix2 (0 : Fin 1) q)
  rw [broadcastTo_apply B hb (ix2 p q) (ix2 (0 : Fin 1) q) (fun a => by
    match a with
    | ⟨0, _⟩ => rfl
    | ⟨1, _⟩ =>
      show q.val = if h = 1 then 0 else q.val
      split
      · have := q.isLt; omega
      · rfl)]

/-- GENERAL LEMMA. The kernel's relu: the maximum with the zero scalar splat. -/
theorem kernel_relu {n h : ℕ} (Y : FVec Ideal (⟨2, ![n, h]⟩ : Shape) .f32) :
    maximumf Y (broadcast ⟨2, ![n, h]⟩ (Scalar.ofBits (F := Ideal) .f32 0x00000000#32)) = relu Y := rfl

/-- A change of float format is the identity on the extended reals. -/
theorem truncf_id {s : Shape} {φ ψ : FTy} (x : FVec Ideal s φ) (h : ψ.bits < φ.bits) : (truncf ψ x h : FVec Ideal s ψ) = x := rfl
theorem extf_id {s : Shape} {φ ψ : FTy} (x : FVec Ideal s φ) (h : φ.bits < ψ.bits) : (extf ψ x h : FVec Ideal s ψ) = x := rfl

end Cert.Layers

end
-- ==== Proof.LibKeepdims.lean ====
/-
  Keepdims column forms read at an index, and a lane sum read as a sum over the row.

  A row reduction with `keepdims` leaves a column `[a, 1]`: the reduced vector `[a]` is cast to `[a, 1]`
  (entry `(p, 0)` is entry `p`), and the column is broadcast back over the row (entry `(p, c)` is the
  column's entry `(p, 0)`). A sum over axis 1 of an `[a, b]` array, at row `p`, is the sum over `k` of
  the entries `(p, k)`.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type}

/-- GENERAL LEMMA. An `[a]` array cast to `[a, 1]` reads, at `(p, u)`, the operand at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- GENERAL LEMMA. An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- GENERAL LEMMA. The index a reduction over axis 1 of an `[a, b]` array inserts at row `p` and position `k`
    is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- GENERAL LEMMA. The exact sum over axis 1 of an `[a, b]` array of extended reals, at row `p`, is the sum
    over `k` of the entries `(p, k)`. -/
theorem reduceAdd_row {a b : ℕ} (h : (⟨2, ![a, b]⟩ : Shape).Reduces [1] ⟨1, ![a]⟩)
    (x : (⟨2, ![a, b]⟩ : Shape).Idx → EReal) (p : Fin a) :
    Ideal.reduceAdd h x (ix1 p) = ∑ k : Fin b, x (ix2 p k) :=
  (Ideal.reduceAdd_single h x (ix1 p)).trans
    (Finset.sum_congr rfl fun k _ => congrArg x (lift_row h p k))

end Cert.LibKeepdims

end
-- ==== Proof.LibSageNet.lean ====
/-
  The message-passing network as functions of whole arrays.

  One layer takes the node features `X`, the neighbour aggregate `A` (a sum over incoming edges) and the column `I` of
  inverse degrees: the aggregate's rows are scaled by `I` (the mean over neighbours), passed through a dense layer with
  weights `Wl` and bias `b`, and the root term `X · Wr` is added. The two inner layers then divide every row by its
  Euclidean norm, floored at a small constant, and apply `relu`. The messages of the inner layers are `relu` of a dense
  layer of the features; the last layer's messages are the features themselves.
  Every entry of a layer's result depends on one row of its inputs only.
  The host's and a kernel body's spellings of the combination and of the row normalisation read as these functions:
  the host broadcasts with `broadcast_in_dim` and sums rows from an initial zero, a body broadcasts blocks and reduces
  lanes; over the extended reals both are the same sums.
-/
import Idealize.ShloMosaic.PureOps.Ideal.Laws
import Idealize.ShloMosaic.Lib.ValueIdx
import proofs.«161229_j45835890983353_2_alg».proof.Proof.LibLayers
import proofs.«161229_j45835890983353_2_alg».proof.Proof.LibKeepdims

noncomputable section

namespace Cert.Sage

open Idealize.ShloMosaic Idealize.ShloMosaic.ValueIdx Cert.Layers

/-- Every row of `A` times that row's entry of the one-column array `I`. -/
def scale {n d : ℕ} (A : Mat n d) (I : Mat n 1) : Mat n d := fun i => A i * I (ix2 (i 0) (0 : Fin 1))

/-- The neighbour term through `Wl` with its bias, plus the root term through `Wr`. -/
def comb {n d h : ℕ} (A X : Mat n d) (I : Mat n 1) (Wl : Mat d h) (b : Row h) (Wr : Mat d h) : Mat n h :=
  fun i => dense (scale A I) Wl b i + mm X Wr i

/-- The sum of the squares of row `p`. -/
def rowsq {n h : ℕ} (Y : Mat n h) (p : Fin n) : EReal := ∑ k : Fin h, Y (ix2 p k) * Y (ix2 p k)

/-- Every row divided by its Euclidean norm floored at the small constant (kept as the float word it is printed as). -/
def unit {n h : ℕ} (Y : Mat n h) : Mat n h :=
  fun i => Ideal.div (Y i) (max (Ideal.sqrt (rowsq Y (i 0))) (Ideal.ofBits .f32 0x2B8CBCCC#32))

/-- An inner layer's result: the combination, normalised row by row, then `relu`. -/
def inner {n d h : ℕ} (A X : Mat n d) (I : Mat n 1) (Wl : Mat d h) (b : Row h) (Wr : Mat d h) : Mat n h :=
  relu (unit (comb A X I Wl b Wr))

/-- The whole network over an aggregation `agg` (gather along the edges' sources, sum into their targets), the
    inverse-degree column `I`, and weights already transposed to `d × d` products' right operands. -/
def net {n d : ℕ} (agg : Mat n d → Mat n d) (I : Mat n 1) (X : Mat n d)
    (Wp0 : Mat d d) (bp0 : Row d) (Wl0 : Mat d d) (bl0 : Row d) (Wr0 : Mat d d)
    (Wp1 : Mat d d) (bp1 : Row d) (Wl1 : Mat d d) (bl1 : Row d) (Wr1 : Mat d d)
    (Wlo : Mat d d) (blo : Row d) (Wro : Mat d d) : Mat n d :=
  let X1 := inner (agg (relu (dense X Wp0 bp0))) X I Wl0 bl0 Wr0
  let X2 := inner (agg (relu (dense X1 Wp1 bp1))) X1 I Wl1 bl1 Wr1
  comb (agg X2) X2 I Wlo blo Wro

/-! ## Each entry depends on one row of the inputs -/

theorem scale_row {n n' d : ℕ} (A : Mat n d) (A' : Mat n' d) (I : Mat n 1) (I' : Mat n' 1) (p : Fin n) (p' : Fin n')
    (k : Fin d) (hA : A (ix2 p k) = A' (ix2 p' k)) (hI : I (ix2 p (0 : Fin 1)) = I' (ix2 p' (0 : Fin 1))) :
    scale A I (ix2 p k) = scale A' I' (ix2 p' k) := by
  unfold scale
  show A (ix2 p k) * I (ix2 p (0 : Fin 1)) = A' (ix2 p' k) * I' (ix2 p' (0 : Fin 1))
  rw [hA, hI]

theorem comb_row {n n' d h : ℕ} (A X : Mat n d) (A' X' : Mat n' d) (I : Mat n 1) (I' : Mat n' 1) (Wl : Mat d h) (b : Row h)
    (Wr : Mat d h) (p : Fin n) (p' : Fin n') (q : Fin h)
    (hA : ∀ k : Fin d, A (ix2 p k) = A' (ix2 p' k)) (hX : ∀ k : Fin d, X (ix2 p k) = X' (ix2 p' k))
    (hI : I (ix2 p (0 : Fin 1)) = I' (ix2 p' (0 : Fin 1))) :
    comb A X I Wl b Wr (ix2 p q) = comb A' X' I' Wl b Wr (ix2 p' q) := by
  unfold comb
  rw [dense_row (scale A I) (scale A' I') Wl b p p' q (fun k => scale_row A A' I I' p p' k (hA k) hI),
    mm_row X X' Wr p p' q hX]

theorem rowsq_row {n n' h : ℕ} (Y : Mat n h) (Y' : Mat n' h) (p : Fin n) (p' : Fin n')
    (hY : ∀ k : Fin h, Y (ix2 p k) = Y' (ix2 p' k)) : rowsq Y p = rowsq Y' p' := by
  unfold rowsq
  exact Finset.sum_congr rfl fun k _ => by rw [hY k]

theorem unit_row {n n' h : ℕ} (Y : Mat n h) (Y' : Mat n' h) (p : Fin n) (p' : Fin n') (q : Fin h)
    (hY : ∀ k : Fin h, Y (ix2 p k) = Y' (ix2 p' k)) : unit Y (ix2 p q) = unit Y' (ix2 p' q) := by
  unfold unit
  show Ideal.div (Y (ix2 p q)) (max (Ideal.sqrt (rowsq Y p)) _) = Ideal.div (Y' (ix2 p' q)) (max (Ideal.sqrt (rowsq Y' p')) _)
  rw [hY q, rowsq_row Y Y' p p' hY]

theorem inner_row {n n' d h : ℕ} (A X : Mat n d) (A' X' : Mat n' d) (I : Mat n 1) (I' : Mat n' 1) (Wl : Mat d h) (b : Row h)
    (Wr : Mat d h) (p : Fin n) (p' : Fin n') (q : Fin h)
    (hA : ∀ k : Fin d, A (ix2 p k) = A' (ix2 p' k)) (hX : ∀ k : Fin d, X (ix2 p k) = X' (ix2 p' k))
    (hI : I (ix2 p (0 : Fin 1)) = I' (ix2 p' (0 : Fin 1))) :
    inner A X I Wl b Wr (ix2 p q) = inner A' X' I' Wl b Wr (ix2 p' q) := by
  unfold inner
  exact relu_row _ _ p p' q (unit_row _ _ p p' q fun k => comb_row A X A' X' I I' Wl b Wr p p' k hA hX hI)

/-! ## The host's spelling of a combination and of a row normalisation, at any sizes -/

/-- GENERAL LEMMA. The host's row scaling: the one-column array broadcast over the row, multiplied in. -/
theorem host_scale {n d : ℕ} (A : FVec Ideal (⟨2, ![n, d]⟩ : Shape) .f32) (I : FVec Ideal (⟨2, ![n, 1]⟩ : Shape) .f32)
    (hI : (⟨2, ![n, 1]⟩ : Shape).BroadcastsInDim ⟨2, ![n, d]⟩ ![0, 1]) :
    mulf A (broadcastInDim ⟨2, ![n, d]⟩ ![0, 1] hI I) = scale A I := by
  funext j
  obtain ⟨p, q, rfl⟩ : ∃ (p : Fin n) (q : Fin d), j = ix2 p q := ⟨j 0, j 1, eq_ix2 j⟩
  show A (ix2 p q) * _ = A (ix2 p q) * I (ix2 p (0 : Fin 1))
  rw [Cert.LibHostLayout.broadcastInDim_a1_ab_apply]

/-- GENERAL LEMMA. The host's combination: the product of the scaled aggregate with `Wl`, plus the bias broadcast to
    one row and down the rows, plus the product of the features with `Wr`. -/
theorem host_comb {n d h : ℕ}
    (D : DotDims (⟨2, ![n, d]⟩ : Shape) (⟨2, ![d, h]⟩ : Shape) (⟨2, ![n, h]⟩ : Shape))
    (hrank : D.contr.rank = 1) (hsize : D.contr.size ⟨0, by omega⟩ = d)
    (hl0 : ∀ (j : (⟨2, ![n, h]⟩ : Shape).Idx) (k : D.contr.Idx), (D.lhsIdx j k 0).val = (j 0).val)
    (hl1 : ∀ (j : (⟨2, ![n, h]⟩ : Shape).Idx) (k : D.contr.Idx), (D.lhsIdx j k 1).val = (k ⟨0, by omega⟩).val)
    (hr0 : ∀ (j : (⟨2, ![n, h]⟩ : Shape).Idx) (k : D.contr.Idx), (D.rhsIdx j k 0).val = (k ⟨0, by omega⟩).val)
    (hr1 : ∀ (j : (⟨2, ![n, h]⟩ : Shape).Idx) (k : D.contr.Idx), (D.rhsIdx j k 1).val = (j 1).val)
    (A X : FVec Ideal (⟨2, ![n, d]⟩ : Shape) .f32) (I : FVec Ideal (⟨2, ![n, 1]⟩ : Shape) .f32)
    (Wl Wr : FVec Ideal (⟨2, ![d, h]⟩ : Shape) .f32) (b : FVec Ideal (⟨1, ![h]⟩ : Shape) .f32)
    (hI : (⟨2, ![n, 1]⟩ : Shape).BroadcastsInDim ⟨2, ![n, d]⟩ ![0, 1])
    (h1 : (⟨1, ![h]⟩ : Shape).BroadcastsInDim ⟨2, ![1, h]⟩ ![1])
    (h2 : (⟨2, ![1, h]⟩ : Shape).BroadcastsInDim ⟨2, ![n, h]⟩ ![0, 1]) :
    addf (addf (Host.dotGeneral D none (mulf A (broadcastInDim ⟨2, ![n, d]⟩ ![0, 1] hI I)) Wl)
        (broadcastInDim ⟨2, ![n, h]⟩ ![0, 1] h2 (broadcastInDim ⟨2, ![1, h]⟩ ![1] h1 b)))
      (Host.dotGeneral D none X Wr) = comb A X I Wl b Wr := by
  rw [host_scale, host_dot D hrank hsize hl0 hl1 hr0 hr1 none (scale A I) Wl, host_dot D hrank hsize hl0 hl1 hr0 hr1 none X Wr,
    host_addRow]
  rfl

/-- GENERAL LEMMA. The host's sum over axis 1 of an `[n, h]` array from an initial value, at row `p`, is the initial
    value plus the sum over `k` of the entries `(p, k)`. -/
theorem host_rowsum {n h : ℕ} (red : (⟨2, ![n, h]⟩ : Shape).ReducesTo [1] ⟨1, ![n]⟩)
    (x : (⟨2, ![n, h]⟩ : Shape).Idx → EReal) (init : EReal) (p : Fin n) :
    Ideal.hostReduceAdd red x init (ix1 p) = init + ∑ k : Fin h, x (ix2 p k) :=
  (Ideal.hostReduceAdd_single red ⟨red.1, Nat.one_pos, red.2⟩ x init (ix1 p)).trans
    (congrArg (init + ·) (Finset.sum_congr rfl fun k _ => congrArg x (Cert.LibKeepdims.lift_row _ p k)))

/-- GENERAL LEMMA. The host's row normalisation: the row sums of the squares from zero, kept as a column, their square
    roots floored at the small constant, the column broadcast over the row, divided in. -/
theorem host_unit {n h : ℕ} (Y : FVec Ideal (⟨2, ![n, h]⟩ : Shape) .f32)
    (red : (⟨2, ![n, h]⟩ : Shape).ReducesTo [1] ⟨1, ![n]⟩) (hS : 0 < (⟨0, ![]⟩ : Shape).numel)
    (hc : (⟨1, ![n]⟩ : Shape).BroadcastsInDim ⟨2, ![n, 1]⟩ ![0])
    (h0 : (⟨0, ![]⟩ : Shape).BroadcastsInDim ⟨2, ![n, 1]⟩ ![])
    (hb : (⟨2, ![n, 1]⟩ : Shape).BroadcastsInDim ⟨2, ![n, h]⟩ ![0, 1]) :
    Host.divf Y (broadcastInDim ⟨2, ![n, h]⟩ ![0, 1] hb
      (maximumf (Host.sqrt (broadcastInDim ⟨2, ![n, 1]⟩ ![0] hc
          (Host.reduceAdd (mulf Y Y) (constant (F := Ideal) (⟨0, ![]⟩ : Shape) .f32 0x00000000#32) red hS)))
        (broadcastInDim ⟨2, ![n, 1]⟩ ![] h0 (constant (F := Ideal) (⟨0, ![]⟩ : Shape) .f32 0x2B8CBCCC#32)))) = unit Y := by
  funext j
  obtain ⟨p, q, rfl⟩ : ∃ (p : Fin n) (q : Fin h), j = ix2 p q := ⟨j 0, j 1, eq_ix2 j⟩
  show Ideal.div (Y (ix2 p q)) _ = Ideal.div (Y (ix2 p q)) (max (Ideal.sqrt (rowsq Y p)) (Ideal.ofBits .f32 0x2B8CBCCC#32))
  refine congrArg (Ideal.div (Y (ix2 p q))) ?_
  rw [Cert.LibHostLayout.broadcastInDim_a1_ab_apply]
  show max (Ideal.sqrt _) _ = max (Ideal.sqrt (rowsq Y p)) (Ideal.ofBits .f32 0x2B8CBCCC#32)
  refine congrArg₂ max (congrArg Ideal.sqrt ?_) ?_
  · rw [Cert.LibHostLayout.broadcastInDim_a_a1_apply]
    show Ideal.hostReduceAdd red (mulf Y Y) (Ideal.ofBits .f32 0x00000000#32) (ix1 p) = rowsq Y p
    rw [host_rowsum, Ideal.ofBits_zero_f32, zero_add]
    rfl
  · rw [broadcastInDim_apply ![] h0 _ (ix2 p (0 : Fin 1)) ix0 (fun a => a.elim0)]
    rfl

/-! ## A kernel body's spelling of a combination and of a row normalisation, at any block extents -/

/-- GENERAL LEMMA. The aggregate times the inverse-degree column broadcast over the row: every row scaled by its
    entry of the column. -/
theorem kernel_scale {n d : ℕ} (A : FVec Ideal (⟨2, ![n, d]⟩ : Shape) .f32) (I : FVec Ideal (⟨2, ![n, 1]⟩ : Shape) .f32)
    (hb : (⟨2, ![n, 1]⟩ : Shape).Broadcasts ⟨2, ![n, d]⟩) :
    mulf A (broadcastTo ⟨2, ![n, d]⟩ I hb) = scale A I := by
  funext j
  obtain ⟨p, q, rfl⟩ : ∃ (p : Fin n) (q : Fin d), j = ix2 p q := ⟨j 0, j 1, eq_ix2 j⟩
  show A (ix2 p q) * _ = A (ix2 p q) * I (ix2 p (0 : Fin 1))
  rw [Cert.LibKeepdims.broadcastTo_a1_ab_apply]

/-- GENERAL LEMMA. The neighbour term with its bias plus the root term is the combination. -/
theorem kernel_comb {n d h : ℕ} (A X : Mat n d) (I : Mat n 1) (Wl Wr : Mat d h) (b : Row h) :
    addf (F := Ideal) (φ := .f32) (s := (⟨2, ![n, h]⟩ : Shape)) (addRow (mm (scale A I) Wl) b) (mm X Wr)
      = comb A X I Wl b Wr := rfl

/-- GENERAL LEMMA. The sum over axis 1 of the entrywise square, at row `p`, is the sum of the squares of row `p`. -/
theorem kernel_rowsq {n h : ℕ} (Y : FVec Ideal (⟨2, ![n, h]⟩ : Shape) .f32)
    (hred : (⟨2, ![n, h]⟩ : Shape).Reduces [1] ⟨1, ![n]⟩) (hφ : FKind.Formats .f32)
    (hacc : (0x00000000#32 : BitVec (FTy.bits .f32)) = FKind.add.neutral .f32 hφ) (p : Fin n) :
    multiReduction (F := Ideal) .add [1] ⟨1, ![n]⟩ (mulf Y Y) 0x00000000#32 hred hφ hacc (ix1 p) = rowsq Y p :=
  (Ideal.multiReduction_add_single (mulf Y Y) _ hred hφ hacc (ix1 p)).trans
    (Finset.sum_congr rfl fun k _ => congrArg (mulf Y Y) (Cert.LibKeepdims.lift_row hred p k))

/-- GENERAL LEMMA. The normalisation: the row sums of squares kept as a column, its square root floored at the small
    constant, broadcast back over the row, dividing the array — every row divided by its floored Euclidean norm. -/
theorem kernel_unit {n h : ℕ} (Y : FVec Ideal (⟨2, ![n, h]⟩ : Shape) .f32)
    (hred : (⟨2, ![n, h]⟩ : Shape).Reduces [1] ⟨1, ![n]⟩) (hφ : FKind.Formats .f32)
    (hacc : (0x00000000#32 : BitVec (FTy.bits .f32)) = FKind.add.neutral .f32 hφ)
    (hsc : (⟨1, ![n]⟩ : Shape).ShapeCasts ⟨2, ![n, 1]⟩)
    (hb : (⟨2, ![n, 1]⟩ : Shape).Broadcasts ⟨2, ![n, h]⟩) :
    divf Y (broadcastTo ⟨2, ![n, h]⟩
      (maximumf (sqrt (shapeCast ⟨2, ![n, 1]⟩ (multiReduction (F := Ideal) .add [1] ⟨1, ![n]⟩ (mulf Y Y) 0x00000000#32 hred hφ hacc) hsc))
        (broadcast ⟨2, ![n, 1]⟩ (Scalar.ofBits (F := Ideal) .f32 0x2B8CBCCC#32))) hb) = unit Y := by
  funext j
  obtain ⟨p, q, rfl⟩ : ∃ (p : Fin n) (q : Fin h), j = ix2 p q := ⟨j 0, j 1, eq_ix2 j⟩
  show Ideal.div (Y (ix2 p q)) _ = Ideal.div (Y (ix2 p q)) (max (Ideal.sqrt (rowsq Y p)) (Ideal.ofBits .f32 0x2B8CBCCC#32))
  rw [Cert.LibKeepdims.broadcastTo_a1_ab_apply]
  show Ideal.div (Y (ix2 p q)) (max (Ideal.sqrt (shapeCast ⟨2, ![n, 1]⟩ _ hsc (ix2 p (0 : Fin 1)))) _) = _
  rw [Cert.LibKeepdims.shapeCast_a_a1_apply, kernel_rowsq]
  rfl

/-- GENERAL LEMMA. An inner body's tail: an array known to be `C`, normalised row by row as the body spells it, then
    the maximum with the zero splat, is `relu (unit C)`. -/
theorem kernel_unit_relu {n h : ℕ} (Y : FVec Ideal (⟨2, ![n, h]⟩ : Shape) .f32) (C : Mat n h) (hY : Y = C)
    (hred : (⟨2, ![n, h]⟩ : Shape).Reduces [1] ⟨1, ![n]⟩) (hφ : FKind.Formats .f32)
    (hacc : (0x00000000#32 : BitVec (FTy.bits .f32)) = FKind.add.neutral .f32 hφ)
    (hsc : (⟨1, ![n]⟩ : Shape).ShapeCasts ⟨2, ![n, 1]⟩)
    (hb : (⟨2, ![n, 1]⟩ : Shape).Broadcasts ⟨2, ![n, h]⟩) :
    maximumf
      (divf Y (broadcastTo ⟨2, ![n, h]⟩
        (maximumf (sqrt (shapeCast ⟨2, ![n, 1]⟩ (multiReduction (F := Ideal) .add [1] ⟨1, ![n]⟩ (mulf Y Y) 0x00000000#32 hred hφ hacc) hsc))
          (broadcast ⟨2, ![n, 1]⟩ (Scalar.ofBits (F := Ideal) .f32 0x2B8CBCCC#32))) hb))
      (broadcast ⟨2, ![n, h]⟩ (Scalar.ofBits (F := Ideal) .f32 0x00000000#32)) = relu (unit C) := by
  subst hY
  rw [kernel_unit, kernel_relu]

end Cert.Sage

end
-- ==== Proof.KerLayers.lean ====
/-
  The kernel bodies' arithmetic, read over the extended reals, as the network's layers.

  A projection body computes, on a block of rows, `relu` of the dense layer with the transposed weight block and the
  one-row bias block. A combination body computes, on a block of rows, the layer's combination of the aggregate block
  (scaled by the block of the inverse-degree column) and the feature block; the two inner ones then normalise every
  row and apply `relu`. A change of float format is the identity on the extended reals, so the narrowing casts in the
  bodies disappear.
-/
import proofs.«161229_j45835890983353_2_alg».proof.Proof.Gen.KernelIdeal.Skeleton
import proofs.«161229_j45835890983353_2_alg».proof.Proof.LibSageNet
import proofs.«161229_j45835890983353_2_alg».proof.Proof.LibKeepdims

noncomputable section

namespace Cert.KerLayers

open Idealize.ShloMosaic Idealize.ShloMosaic.ValueIdx Cert.KernelIdeal Cert.KernelIdeal.Gen Cert.Layers Cert.Sage

/-- The transpose a body applies to a weight block: entry `(k, q)` is the block's entry `(q, k)`. -/
abbrev tr (W : Vec Ideal S128x128 .f32) : Mat 128 128 := transpose S128x128 [1, 0] W transposes_S128x128_p1_0_S128x128

/-! ## The five bodies -/

theorem k0_pay1_eq (x : Vec Ideal S5000x128 .f32) (W : Vec Ideal S128x128 .f32) (b : Vec Ideal S1x128 .f32) :
    k0_pay1 (F := Ideal) x W b = relu (dense (n := 5000) x (tr W) (rowOf b)) := by
  unfold k0_pay1
  dsimp only
  -- the narrowing casts are the identity on the extended reals
  show maximumf
        (addf
          (matmul dot_S5000x128_S128x128_S5000x128_1_0_0_1_n_n none x
            (transpose S128x128 [1, 0] (shapeCast S128x128 W shapeCasts_S128x128_S128x128)
              transposes_S128x128_p1_0_S128x128)
            (constant (F := Ideal) S5000x128 FTy.f32 0x00000000#32))
          (broadcastTo S5000x128 (shapeCast S1x128 b shapeCasts_S1x128_S1x128) broadcasts_S1x128_S5000x128))
        (broadcast S5000x128 (Scalar.ofBits (F := Ideal) .f32 0x00000000#32)) = _
  rw [shapeCast_self, shapeCast_self]
  rw [kernel_matmul (n := 5000) (d := 128) (h := 128) dot_S5000x128_S128x128_S5000x128_1_0_0_1_n_n rfl rfl
    (fun _ _ => rfl) (fun _ _ => rfl) (fun _ _ => rfl) (fun _ _ => rfl)]
  rw [kernel_addRow, kernel_relu]
  rfl

theorem k2_pay1_eq (x : Vec Ideal S5000x128 .f32) (W : Vec Ideal S128x128 .f32) (b : Vec Ideal S1x128 .f32) :
    k2_pay1 (F := Ideal) x W b = relu (dense (n := 5000) x (tr W) (rowOf b)) := by
  unfold k2_pay1
  dsimp only
  -- the narrowing casts are the identity on the extended reals
  show maximumf
        (addf
          (matmul dot_S5000x128_S128x128_S5000x128_1_0_0_1_n_n none
            (shapeCast S5000x128 x shapeCasts_S5000x128_S5000x128)
            (transpose S128x128 [1, 0] (shapeCast S128x128 W shapeCasts_S128x128_S128x128)
              transposes_S128x128_p1_0_S128x128)
            (constant (F := Ideal) S5000x128 FTy.f32 0x00000000#32))
          (broadcastTo S5000x128 (shapeCast S1x128 b shapeCasts_S1x128_S1x128) broadcasts_S1x128_S5000x128))
        (broadcast S5000x128 (Scalar.ofBits (F := Ideal) .f32 0x00000000#32)) = _
  rw [shapeCast_self, shapeCast_self, shapeCast_self]
  rw [kernel_matmul (n := 5000) (d := 128) (h := 128) dot_S5000x128_S128x128_S5000x128_1_0_0_1_n_n rfl rfl
    (fun _ _ => rfl) (fun _ _ => rfl) (fun _ _ => rfl) (fun _ _ => rfl)]
  rw [kernel_addRow, kernel_relu]
  rfl

theorem k1_pay1_eq (A : Vec Ideal S5000x128 .f32) (I : Vec Ideal S5000x1 .f32) (X : Vec Ideal S5000x128 .f32)
    (Wl Wr : Vec Ideal S128x128 .f32) (b : Vec Ideal S1x128 .f32) :
    k1_pay1 (F := Ideal) A I X Wl Wr b = inner (n := 5000) A X I (tr Wl) (rowOf b) (tr Wr) := by
  unfold k1_pay1
  dsimp only
  -- the tail is the normalisation and relu of the sum of the two products plus bias, which is the combination
  refine kernel_unit_relu (n := 5000) (h := 128) _ (comb A X I (tr Wl) (rowOf b) (tr Wr)) ?_ _ _ _ _ _
  -- the narrowing casts are the identity on the extended reals
  show addf
        (addf
          (matmul dot_S5000x128_S128x128_S5000x128_1_0_0_1_n_n none
            (mulf (φ := .f32) (shapeCast S5000x128 A shapeCasts_S5000x128_S5000x128)
              (broadcastTo S5000x128 (shapeCast S5000x1 I shapeCasts_S5000x1_S5000x1) broadcasts_S5000x1_S5000x128))
            (transpose S128x128 [1, 0] (shapeCast S128x128 Wl shapeCasts_S128x128_S128x128)
              transposes_S128x128_p1_0_S128x128)
            (constant (F := Ideal) S5000x128 FTy.f32 0x00000000#32))
          (broadcastTo S5000x128 (shapeCast S1x128 b shapeCasts_S1x128_S1x128) broadcasts_S1x128_S5000x128))
        (matmul dot_S5000x128_S128x128_S5000x128_1_0_0_1_n_n none X
          (transpose S128x128 [1, 0] (shapeCast S128x128 Wr shapeCasts_S128x128_S128x128)
            transposes_S128x128_p1_0_S128x128)
          (constant (F := Ideal) S5000x128 FTy.f32 0x00000000#32)) = _
  rw [shapeCast_self, shapeCast_self, shapeCast_self, shapeCast_self, shapeCast_self]
  rw [kernel_scale (n := 5000) (d := 128)]
  rw [kernel_matmul (n := 5000) (d := 128) (h := 128) dot_S5000x128_S128x128_S5000x128_1_0_0_1_n_n rfl rfl
    (fun _ _ => rfl) (fun _ _ => rfl) (fun _ _ => rfl) (fun _ _ => rfl),
    kernel_matmul (n := 5000) (d := 128) (h := 128) dot_S5000x128_S128x128_S5000x128_1_0_0_1_n_n rfl rfl
    (fun _ _ => rfl) (fun _ _ => rfl) (fun _ _ => rfl) (fun _ _ => rfl)]
  rw [kernel_addRow]
  exact kernel_comb (n := 5000) (d := 128) (h := 128) A X I (tr Wl) (tr Wr) (rowOf b)

theorem k3_pay1_eq (A : Vec Ideal S5000x128 .f32) (I : Vec Ideal S5000x1 .f32) (X : Vec Ideal S5000x128 .f32)
    (Wl Wr : Vec Ideal S128x128 .f32) (b : Vec Ideal S1x128 .f32) :
    k3_pay1 (F := Ideal) A I X Wl Wr b = inner (n := 5000) A X I (tr Wl) (rowOf b) (tr Wr) := by
  unfold k3_pay1
  dsimp only
  -- the tail is the normalisation and relu of the sum of the two products plus bias, which is the combination
  refine kernel_unit_relu (n := 5000) (h := 128) _ (comb A X I (tr Wl) (rowOf b) (tr Wr)) ?_ _ _ _ _ _
  -- the narrowing casts are the identity on the extended reals
  show addf
        (addf
          (matmul dot_S5000x128_S128x128_S5000x128_1_0_0_1_n_n none
            (mulf (φ := .f32) (shapeCast S5000x128 A shapeCasts_S5000x128_S5000x128)
              (broadcastTo S5000x128 (shapeCast S5000x1 I shapeCasts_S5000x1_S5000x1) broadcasts_S5000x1_S5000x128))
            (transpose S128x128 [1, 0] (shapeCast S128x128 Wl shapeCasts_S128x128_S128x128)
              transposes_S128x128_p1_0_S128x128)
            (constant (F := Ideal) S5000x128 FTy.f32 0x00000000#32))
          (broadcastTo S5000x128 (shapeCast S1x128 b shapeCasts_S1x128_S1x128) broadcasts_S1x128_S5000x128))
        (matmul dot_S5000x128_S128x128_S5000x128_1_0_0_1_n_n none (shapeCast S5000x128 X shapeCasts_S5000x128_S5000x128)
          (transpose S128x128 [1, 0] (shapeCast S128x128 Wr shapeCasts_S128x128_S128x128)
            transposes_S128x128_p1_0_S128x128)
          (constant (F := Ideal) S5000x128 FTy.f32 0x00000000#32)) = _
  rw [shapeCast_self, shapeCast_self, shapeCast_self, shapeCast_self, shapeCast_self, shapeCast_self]
  rw [kernel_scale (n := 5000) (d := 128)]
  rw [kernel_matmul (n := 5000) (d := 128) (h := 128) dot_S5000x128_S128x128_S5000x128_1_0_0_1_n_n rfl rfl
    (fun _ _ => rfl) (fun _ _ => rfl) (fun _ _ => rfl) (fun _ _ => rfl),
    kernel_matmul (n := 5000) (d := 128) (h := 128) dot_S5000x128_S128x128_S5000x128_1_0_0_1_n_n rfl rfl
    (fun _ _ => rfl) (fun _ _ => rfl) (fun _ _ => rfl) (fun _ _ => rfl)]
  rw [kernel_addRow]
  exact kernel_comb (n := 5000) (d := 128) (h := 128) A X I (tr Wl) (tr Wr) (rowOf b)

theorem k4_pay1_eq (A : Vec Ideal S5000x128 .f32) (I : Vec Ideal S5000x1 .f32) (X : Vec Ideal S5000x128 .f32)
    (Wl Wr : Vec Ideal S128x128 .f32) (b : Vec Ideal S1x128 .f32) :
    k4_pay1 (F := Ideal) A I X Wl Wr b = comb (n := 5000) A X I (tr Wl) (rowOf b) (tr Wr) := by
  unfold k4_pay1
  dsimp only
  -- the narrowing casts are the identity on the extended reals
  show addf
        (addf
          (matmul dot_S5000x128_S128x128_S5000x128_1_0_0_1_n_n none
            (mulf (φ := .f32) (shapeCast S5000x128 A shapeCasts_S5000x128_S5000x128)
              (broadcastTo S5000x128 (shapeCast S5000x1 I shapeCasts_S5000x1_S5000x1) broadcasts_S5000x1_S5000x128))
            (transpose S128x128 [1, 0] Wl transposes_S128x128_p1_0_S128x128)
            (constant (F := Ideal) S5000x128 FTy.f32 0x00000000#32))
          (broadcastTo S5000x128 (shapeCast S1x128 b shapeCasts_S1x128_S1x128) broadcasts_S1x128_S5000x128))
        (matmul dot_S5000x128_S128x128_S5000x128_1_0_0_1_n_n none
          (shapeCast S5000x128 X shapeCasts_S5000x128_S5000x128)
          (transpose S128x128 [1, 0] Wr transposes_S128x128_p1_0_S128x128)
          (constant (F := Ideal) S5000x128 FTy.f32 0x00000000#32)) = _
  rw [shapeCast_self, shapeCast_self, shapeCast_self, shapeCast_self]
  rw [kernel_scale (n := 5000) (d := 128)]
  rw [kernel_matmul (n := 5000) (d := 128) (h := 128) dot_S5000x128_S128x128_S5000x128_1_0_0_1_n_n rfl rfl
    (fun _ _ => rfl) (fun _ _ => rfl) (fun _ _ => rfl) (fun _ _ => rfl),
    kernel_matmul (n := 5000) (d := 128) (h := 128) dot_S5000x128_S128x128_S5000x128_1_0_0_1_n_n rfl rfl
    (fun _ _ => rfl) (fun _ _ => rfl) (fun _ _ => rfl) (fun _ _ => rfl)]
  rw [kernel_addRow]
  exact kernel_comb (n := 5000) (d := 128) (h := 128) A X I (tr Wl) (tr Wr) (rowOf b)

end Cert.KerLayers

end
-- ==== Proof.KerRegions.lean ====
/-
  What each pipelined region leaves in its output array, as one whole-array layer of the arrays it reads.

  A region walks twenty grid points; at point `t` it reads rows `5000 t … 5000 t + 4999` of its row-blocked operands
  and the whole of its weight and bias operands, and writes the same rows of its output. Every entry of a layer
  depends on one row of the row-blocked inputs only, so what point `t` writes is rows `5000 t …` of the layer applied
  to the whole arrays; the twenty row blocks tile the output, which therefore ends holding the layer of the whole arrays.
-/
import proofs.«161229_j45835890983353_2_alg».proof.Proof.Gen.KernelIdeal.Frame
import proofs.«161229_j45835890983353_2_alg».proof.Proof.KerLayers
import Idealize.ShloMosaic.Lib.Pipeline.Value

set_option maxRecDepth 16384

noncomputable section

namespace Cert.KerRegions

open Cert.KernelIdeal Cert.KernelIdeal.Gen Cert.KerLayers Cert.Layers Cert.Sage
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## Row blocks of the layers, at an index of the block and the index of the whole array it sits at -/

/-- An entry of a projection of a row block is the entry of the projection of the whole array in the same column and
    in the row the block's row sits at. -/
theorem proj_at (X : Mat 100000 128) (Xb : Mat 5000 128) (W : Mat 128 128) (b : Row 128)
    (j : (⟨2, ![5000, 128]⟩ : Shape).Idx) (i : (⟨2, ![100000, 128]⟩ : Shape).Idx)
    (h1 : (i 1).val = (j 1).val) (hX : ∀ k : Fin 128, Xb (ix2 (j 0) k) = X (ix2 (i 0) k)) :
    relu (dense Xb W b) j = relu (dense X W b) i := by
  obtain ⟨p, q, rfl⟩ : ∃ (p : Fin 5000) (q : Fin 128), j = ix2 p q := ⟨j 0, j 1, eq_ix2 j⟩
  obtain ⟨P, Q, rfl⟩ : ∃ (P : Fin 100000) (Q : Fin 128), i = ix2 P Q := ⟨i 0, i 1, eq_ix2 i⟩
  have hq : Q = q := Fin.ext h1
  subst hq
  exact relu_row _ _ p P Q (dense_row Xb X W b p P Q hX)

/-- The same for an inner layer's result: the aggregate, the features and the inverse-degree column are read in the
    block's row, the weights and the bias whole. -/
theorem inner_at (A X : Mat 100000 128) (I : Mat 100000 1) (Ab Xb : Mat 5000 128) (Ib : Mat 5000 1)
    (Wl : Mat 128 128) (b : Row 128) (Wr : Mat 128 128)
    (j : (⟨2, ![5000, 128]⟩ : Shape).Idx) (i : (⟨2, ![100000, 128]⟩ : Shape).Idx)
    (h1 : (i 1).val = (j 1).val) (hA : ∀ k : Fin 128, Ab (ix2 (j 0) k) = A (ix2 (i 0) k))
    (hX : ∀ k : Fin 128, Xb (ix2 (j 0) k) = X (ix2 (i 0) k))
    (hI : Ib (ix2 (j 0) (0 : Fin 1)) = I (ix2 (i 0) (0 : Fin 1))) :
    inner Ab Xb Ib Wl b Wr j = inner A X I Wl b Wr i := by
  obtain ⟨p, q, rfl⟩ : ∃ (p : Fin 5000) (q : Fin 128), j = ix2 p q := ⟨j 0, j 1, eq_ix2 j⟩
  obtain ⟨P, Q, rfl⟩ : ∃ (P : Fin 100000) (Q : Fin 128), i = ix2 P Q := ⟨i 0, i 1, eq_ix2 i⟩
  have hq : Q = q := Fin.ext h1
  subst hq
  exact inner_row Ab Xb A X Ib I Wl b Wr p P Q hA hX hI

/-- The same for the last layer's combination. -/
theorem comb_at (A X : Mat 100000 128) (I : Mat 100000 1) (Ab Xb : Mat 5000 128) (Ib : Mat 5000 1)
    (Wl : Mat 128 128) (b : Row 128) (Wr : Mat 128 128)
    (j : (⟨2, ![5000, 128]⟩ : Shape).Idx) (i : (⟨2, ![100000, 128]⟩ : Shape).Idx)
    (h1 : (i 1).val = (j 1).val) (hA : ∀ k : Fin 128, Ab (ix2 (j 0) k) = A (ix2 (i 0) k))
    (hX : ∀ k : Fin 128, Xb (ix2 (j 0) k) = X (ix2 (i 0) k))
    (hI : Ib (ix2 (j 0) (0 : Fin 1)) = I (ix2 (i 0) (0 : Fin 1))) :
    comb Ab Xb Ib Wl b Wr j = comb A X I Wl b Wr i := by
  obtain ⟨p, q, rfl⟩ : ∃ (p : Fin 5000) (q : Fin 128), j = ix2 p q := ⟨j 0, j 1, eq_ix2 j⟩
  obtain ⟨P, Q, rfl⟩ : ∃ (P : Fin 100000) (Q : Fin 128), i = ix2 P Q := ⟨i 0, i 1, eq_ix2 i⟩
  have hq : Q = q := Fin.ext h1
  subst hq
  exact comb_row Ab Xb A X Ib I Wl b Wr p P Q hA hX hI

variable (V : (c : Dev nD) → (b : Ref sig .tc) → Buf (Elt Ideal) ((c : Thread nD τ).loc b))

/-! ## Region 0: the first layer's messages -/

/-- Where the windows of region 0 sit at each grid point: the row-blocked ones at block row `t`, the others at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The messages of the arrays region 0 finds. -/
def out0 (c : Dev nD) : Mat 100000 128 :=
  relu (dense (n := 100000) (V c main_arg0) (tr (V c main_v14)) (rowOf (V c main_v17)))

theorem wblk0 (c : Dev nD) (t : Fin cfg0.N) : (iblk0 V c 1 t : Mat 128 128) = V c main_v14 := by
  obtain ⟨e0, e1, e2, e3, e4, e5, e6, e7⟩ := idx0 t
  funext y
  show V c main_v14 (((cfg0.win 1).blk t).view.emb y) = V c main_v14 y
  congr 1
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem bblk0 (c : Dev nD) (t : Fin cfg0.N) : (iblk0 V c 2 t : Mat 1 128) = V c main_v17 := by
  obtain ⟨e0, e1, e2, e3, e4, e5, e6, e7⟩ := idx0 t
  funext y
  show V c main_v17 (((cfg0.win 2).blk t).view.emb y) = V c main_v17 y
  congr 1
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- What point `t` of region 0 writes back is its row block of the messages. -/
theorem flushed0_eq (c : Dev nD) (t : Fin cfg0.N) :
    (dat0 (F := Ideal) V c).flushed 3 t = ((cfg0.win 3).blk t).view.read (Elt Ideal) (out0 V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  rw [k0_pay1_eq, wblk0 V c t, bblk0 V c t]
  obtain ⟨e0, e1, e2, e3, e4, e5, e6, e7⟩ := idx0 t
  funext j
  refine proj_at (V c main_arg0) (iblk0 V c 0 t) _ _ j (((cfg0.win 3).blk t).view.emb j) ?_ ?_
  · show win0_3.index t (1 : Fin 2) * 128 + 1 * (j 1).val = (j 1).val; omega
  · intro k
    show V c main_arg0 (((cfg0.win 0).blk t).view.emb (ix2 (j 0) k)) = V c main_arg0 (ix2 ((((cfg0.win 3).blk t).view.emb j) 0) k)
    congr 1
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega

/-- An index of the output array is in point `t`'s block when each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- The twenty row blocks tile the output: row `r` is in the block of point `r / 5000`. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 5000 < grid0.N := by rw [N_0]; omega
  refine ⟨⟨(i 0).val / 5000, hN⟩, flush0_3 _, ?_⟩
  rw [mem_blk0]
  obtain ⟨e0, e1, e2, e3, e4, e5, e6, e7⟩ := idx0 ⟨(i 0).val / 5000, hN⟩
  intro a
  match a with
  | ⟨0, _⟩ =>
    show win0_3.index ⟨(i 0).val / 5000, hN⟩ (0 : Fin 2) * 5000 ≤ (i 0).val ∧ (i 0).val < win0_3.index ⟨(i 0).val / 5000, hN⟩ (0 : Fin 2) * 5000 + 5000
    have hrow : win0_3.index ⟨(i 0).val / 5000, hN⟩ (0 : Fin 2) = (i 0).val / 5000 := e6
    omega
  | ⟨1, _⟩ =>
    show win0_3.index ⟨(i 0).val / 5000, hN⟩ (1 : Fin 2) * 128 ≤ (i 1).val ∧ (i 1).val < win0_3.index ⟨(i 0).val / 5000, hN⟩ (1 : Fin 2) * 128 + 128
    omega

/-- After region 0 its output array holds the layer of the arrays the region found. -/
theorem region0 (c : Dev nD) : (dat0 (F := Ideal) V c).arrAt 3 cfg0.N = out0 V c :=
  (dat0 V c).arrAt_eq_of_cover 3 (out0 V c) (fun t _ => flushed0_eq V c t) cover0

/-! ## Region 1: the first layer's result -/

/-- Where the windows of region 1 sit at each grid point: the row-blocked ones at block row `t`, the others at the origin. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The layer of the arrays region 1 finds. -/
def out1 (c : Dev nD) : Mat 100000 128 :=
  inner (n := 100000) (V c main_v29) (V c main_arg0) (V c main_v12) (tr (V c main_v31)) (rowOf (V c main_v36)) (tr (V c main_v35))

theorem wlblk1 (c : Dev nD) (t : Fin cfg1.N) : (iblk1 V c 3 t : Mat 128 128) = V c main_v31 := by
  obtain ⟨e0, e1, e2, e3, e4, e5, e6, e7, e8, e9, e10, e11, e12, e13⟩ := idx1 t
  funext y
  show V c main_v31 (((cfg1.win 3).blk t).view.emb y) = V c main_v31 y
  congr 1
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem bblk1 (c : Dev nD) (t : Fin cfg1.N) : (iblk1 V c 4 t : Mat 1 128) = V c main_v36 := by
  obtain ⟨e0, e1, e2, e3, e4, e5, e6, e7, e8, e9, e10, e11, e12, e13⟩ := idx1 t
  funext y
  show V c main_v36 (((cfg1.win 4).blk t).view.emb y) = V c main_v36 y
  congr 1
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

theorem wrblk1 (c : Dev nD) (t : Fin cfg1.N) : (iblk1 V c 5 t : Mat 128 128) = V c main_v35 := by
  obtain ⟨e0, e1, e2, e3, e4, e5, e6, e7, e8, e9, e10, e11, e12, e13⟩ := idx1 t
  funext y
  show V c main_v35 (((cfg1.win 5).blk t).view.emb y) = V c main_v35 y
  congr 1
  funext a; apply Fin.ext
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- What point `t` of region 1 writes back is its row block of the layer. -/
theorem flushed1_eq (c : Dev nD) (t : Fin cfg1.N) :
    (dat1 (F := Ideal) V c).flushed 6 t = ((cfg1.win 6).blk t).view.read (Elt Ideal) (out1 V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x128) hz, View.ld_unit_zero (S := S1x128) hz]
  rw [k1_pay1_eq, wlblk1 V c t, bblk1 V c t, wrblk1 V c t]
  obtain ⟨e0, e1, e2, e3, e4, e5, e6, e7, e8, e9, e10, e11, e12, e13⟩ := idx1 t
  funext j
  refine inner_at (V c main_v29) (V c main_arg0) (V c main_v12) (iblk1 V c 0 t) (iblk1 V c 1 t) (iblk1 V c 2 t) _ _ _ j (((cfg1.win 6).blk t).view.emb j) ?_ ?_ ?_ ?_
  · show win1_6.index t (1 : Fin 2) * 128 + 1 * (j 1).val = (j 1).val; omega
  · intro k
    show V c main_v29 (((cfg1.win 0).blk t).view.emb (ix2 (j 0) k)) = V c main_v29 (ix2 ((((cfg1.win 6).blk t).view.emb j) 0) k)
    congr 1
    funext a; apply Fin.ext
    match a with
    | ⟨0, _⟩ => show win1_0.index t (0 : Fin 2) * 5000 + 1 * (j 0).val = win1_6.index t (0 : Fin 2) * 5000 + 1 * (j 0).val; omega
    | ⟨1, _⟩ => show win1_0.index t (1 : Fin 2) * 128 + 1 * k.val = k.val; omega
  · intro k
    show V c main_arg0 (((cfg1.win 1).blk t).view.emb (ix2 (j 0) k)) = V c main_arg0 (ix2 ((((cfg1.win 6).blk t).view.emb j) 0) k)
    congr 1
    funext a; apply Fin.ext
    match a with
    | ⟨0, _⟩ => show win1_1.index t (0 : Fin 2) * 5000 + 1 * (j 0).val = win1_6.index t (0 : Fin 2) * 5000 + 1 * (j 0).val; omega
    | ⟨1, _⟩ => show win1_1.index t (1 : Fin 2) * 128 + 1 * k.val = k.val; omega
  · show V c main_v12 (((cfg1.win 2).blk t).view.emb (ix2 (j 0) (0 : Fin 1))) = V c main_v12 (ix2 ((((cfg1.win 6).blk t).view.emb j) 0) (0 : Fin 1))
    congr 1
    funext a; apply Fin.ext
    match a with
    | ⟨0, _⟩ => show win1_2.index t (0 : Fin 2) * 5000 + 1 * (j 0).val = win1_6.index t (0 : Fin 2) * 5000 + 1 * (j 0).val; omega
    | ⟨1, _⟩ => show win1_2.index t (1 : Fin 2) * 1 + 1 * 0 = 0; omega

/-- An index of the output array is in point `t`'s block when each coordinate is in the block's range on its axis. -/
theorem mem_blk1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v37).slice (win1_6.rect t)).set ↔ _
  rw [View.set_slice_whole, Rect.mem_set_unit]
  exact Iff.rfl

/-- The twenty row blocks tile the output: row `r` is in the block of point `r / 5000`. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : (i 0).val / 5000 < grid1.N := by rw [N_1]; omega
  refine ⟨⟨(i 0).val / 5000, hN⟩, flush1_6 _, ?_⟩
  rw [mem_blk1]
  obtain ⟨e0, e1, e2, e3, e4, e5, e6, e7, e8, e9, e10, e11, e12, e13⟩ := idx1 ⟨(i 0).val / 5000, hN⟩
  intro a
  match a with
  | ⟨0, _⟩ =>
    show win1_6.index ⟨(i 0).val / 5000, hN⟩ (0 : Fin 2) * 5000 ≤ (i 0).val ∧ (i 0).val < win1_6.index ⟨(i 0).val / 5000, hN⟩ (0 : Fin 2) * 5000 + 5000
    have hrow : win1_6.index ⟨(i 0).val / 5000, hN⟩ (0 : Fin 2) = (i 0).val / 5000 := e12
    omega
  | ⟨1, _⟩ =>
    show win1_6.index ⟨(i 0).val / 5000, hN⟩ (1 : Fin 2) * 128 ≤ (i 1).val ∧ (i 1).val < win1_6.index ⟨(i 0).val / 5000, hN⟩ (1 : Fin 2) * 128 + 128
    omega

/-- After region 1 its output array holds the layer of the arrays the region found. -/
theorem region1 (c : Dev nD) : (dat1 (F := Ideal) V c).arrAt 6 cfg1.N = out1 V c :=
  (dat1 V c).arrAt_eq_of_cover 6 (out1 V c) (fun t _ => flushed1_eq V c t) cover1

/-! ## Region 2: the second layer's messages -/

/-- Where the windows of region 2 sit at each grid point: the row-blocked ones at block row `t`, the others at the origin. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The messages of the arrays region 2 finds. -/
def out2 (c : Dev nD) : Mat 100000 128 :=
  relu (dense (n := 100000) (V c main_v37) (tr (V c main_v39)) (rowOf (V c main_v42)))

theorem wblk2 (c : Dev nD) (t : Fin cfg2.N) : (iblk2 V c 1 t : Mat 128 128) = V c main_v39 := by
  obtain ⟨e0, e1, e2, e3, e4, e5, e6, e7⟩ := idx2 t
  funext y
  show V c main_v39 (((cfg2.win 1).blk t).view.emb y) = V c main_v39 y
  congr 1
  funext a; apply Fin.ext
  match a with
  | ⟨0, _⟩ => show win2_1.index t (0 : Fin 2) * 128 + 1 * (y 0).val = (y 0).val; omega
  | ⟨1, _⟩ => show win2_1.index t (1 : Fin 2) * 128 + 1 * (y 1).val = (y 1).val; omega

theorem bblk2 (c : Dev nD) (t : Fin cfg2.N) : (iblk2 V c 2 t : Mat 1 128) = V c main_v42 := by
  obtain ⟨e0, e1, e2, e3, e4, e5, e6, e7⟩ := idx2 t
  funext y
  show V c main_v42 (((cfg2.win 2).blk t).view.emb y) = V c main_v42 y
  congr 1
  funext a; apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- What point `t` of region 2 writes back is its row block of the messages. -/
theorem flushed2_eq (c : Dev nD) (t : Fin cfg2.N) :
    (dat2 (F := Ideal) V c).flushed 3 t = ((cfg2.win 3).blk t).view.read (Elt Ideal) (out2 V c) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S1x128) hz]
  rw [k2_pay1_eq, wblk2 V c t, bblk2 V c t]
  obtain ⟨e0, e1, e2, e3, e4, e5, e6, e7⟩ := idx2 t
  funext j
  refine proj_at (V c main_v37) (iblk2 V c 0 t) _ _ j (((cfg2.win 3).blk t).view.emb j) ?_ ?_
  · show win2_3.index t (1 : Fin 2) * 128 + 1 * (j 1).val = (j 1).val; omega
  · intro k
    show V c main_v37 (((cfg2.win 0).blk t).view.emb (ix2 (j 0) k)) = V c main_v37 (ix2 ((((cfg2.win 3).blk t).view.emb j) 0) k)
    congr 1
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega

/-- An index of the output array is in point `t`'s block when each coordinate is in the block's range on its axis. -/
theorem mem_blk2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v43).slice (win2_3.rect t)).set ↔ _
  rw [View.set_slice_whole, Rect.mem_set_unit]
  exact Iff.rfl

/-- The twenty row blocks tile the output: row `r` is in the block of point `r / 5000`. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : (i 0).val / 5000 < grid2.N := by rw [N_2]; omega
  refine ⟨⟨(i 0).val / 5000, hN⟩, flush2_3 _, ?_⟩
  rw [mem_blk2]
  obtain ⟨e0, e1, e2, e3, e4, e5, e6, e7⟩ := idx2 ⟨(i 0).val / 5000, hN⟩
  intro a
  match a with
  | ⟨0, _⟩ =>
    show win2_3.index ⟨(i 0).val / 5000, hN⟩ (0 : Fin 2) * 5000 ≤ (i 0).val ∧ (i 0).val < win2_3.index ⟨(i 0).val / 5000, hN⟩ (0 : Fin 2) * 5000 + 5000
    have hrow : win2_3.index ⟨(i 0).val / 5000, hN⟩ (0 : Fin 2) = (i 0).val / 5000 := e6
    omega
  | ⟨1, _⟩ =>
    show win2_3.index ⟨(i 0).val / 5000, hN⟩ (1 : Fin 2) * 128 ≤ (i 1).val ∧ (i 1).val < win2_3.index ⟨(i 0).val / 5000, hN⟩ (1 : Fin 2) * 128 + 128
    omega

/-- After region 2 its output array holds the layer of the arrays the region found. -/
theorem region2 (c : Dev nD) : (dat2 (F := Ideal) V c).arrAt 3 cfg2.N = out2 V c :=
  (dat2 V c).arrAt_eq_of_cover 3 (out2 V c) (fun t _ => flushed2_eq V c t) cover2

/-! ## Region 3: the second layer's result -/

/-- Where the windows of region 3 sit at each grid point: the row-blocked ones at block row `t`, the others at the origin. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The layer of the arrays region 3 finds. -/
def out3 (c : Dev nD) : Mat 100000 128 :=
  inner (n := 100000) (V c main_v54) (V c main_v37) (V c main_v12) (tr (V c main_v56)) (rowOf (V c main_v61)) (tr (V c main_v60))

theorem wlblk3 (c : Dev nD) (t : Fin cfg3.N) : (iblk3 V c 3 t : Mat 128 128) = V c main_v56 := by
  obtain ⟨e0, e1, e2, e3, e4, e5, e6, e7, e8, e9, e10, e11, e12, e13⟩ := idx3 t
  funext y
  show V c main_v56 (((cfg3.win 3).blk t).view.emb y) = V c main_v56 y
  congr 1
  funext a; apply Fin.ext
  match a with
  | ⟨0, _⟩ => show win3_3.index t (0 : Fin 2) * 128 + 1 * (y 0).val = (y 0).val; omega
  | ⟨1, _⟩ => show win3_3.index t (1 : Fin 2) * 128 + 1 * (y 1).val = (y 1).val; omega

theorem bblk3 (c : Dev nD) (t : Fin cfg3.N) : (iblk3 V c 4 t : Mat 1 128) = V c main_v61 := by
  obtain ⟨e0, e1, e2, e3, e4, e5, e6, e7, e8, e9, e10, e11, e12, e13⟩ := idx3 t
  funext y
  show V c main_v61 (((cfg3.win 4).blk t).view.emb y) = V c main_v61 y
  congr 1
  funext a; apply Fin.ext
  match a with
  | ⟨0, _⟩ => show win3_4.index t (0 : Fin 2) * 1 + 1 * (y 0).val = (y 0).val; omega
  | ⟨1, _⟩ => show win3_4.index t (1 : Fin 2) * 128 + 1 * (y 1).val = (y 1).val; omega

theorem wrblk3 (c : Dev nD) (t : Fin cfg3.N) : (iblk3 V c 5 t : Mat 128 128) = V c main_v60 := by
  obtain ⟨e0, e1, e2, e3, e4, e5, e6, e7, e8, e9, e10, e11, e12, e13⟩ := idx3 t
  funext y
  show V c main_v60 (((cfg3.win 5).blk t).view.emb y) = V c main_v60 y
  congr 1
  funext a; apply Fin.ext
  match a with
  | ⟨0, _⟩ => show win3_5.index t (0 : Fin 2) * 128 + 1 * (y 0).val = (y 0).val; omega
  | ⟨1, _⟩ => show win3_5.index t (1 : Fin 2) * 128 + 1 * (y 1).val = (y 1).val; omega

/-- What point `t` of region 3 writes back is its row block of the layer. -/
theorem flushed3_eq (c : Dev nD) (t : Fin cfg3.N) :
    (dat3 (F := Ideal) V c).flushed 6 t = ((cfg3.win 6).blk t).view.read (Elt Ideal) (out3 V c) := by
  show (cfg3.win 6).cut (grid3.coords t) ((dat3 V c).after 6 t) = _
  rw [after3_6]
  unfold out3_6
  rw [View.canon_unit_zero hz]
  simp only [View.ld_unit_zero (S := S5000x128) hz, View.ld_unit_zero (S := S5000x1) hz, View.ld_unit_zero (S := S128x128) hz, View.ld_unit_zero (S := S1x128) hz]
  rw [k3_pay1_eq, wlblk3 V c t, bblk3 V c t, wrblk3 V c t]
  obtain ⟨e0, e1, e2, e3, e4, e5, e6, e7, e8, e9, e10, e11, e12, e13⟩ := idx3 t
  funext j
  refine inner_at (V c main_v54) (V c main_v37) (V c main_v12) (iblk3 V c 0 t) (iblk3 V c 1 t) (iblk3 V c 2 t) _ _ _ j (((cfg3.win 6).blk t).view.emb j) ?_ ?_ ?_ ?_
  · show win3_6.index t (1 : Fin 2) * 128 + 1 * (j 1).val = (j 1).val; omega
  · intro k
    show V c main_v54 (((cfg3.win 0).blk t).view.emb (ix2 (j 0) k)) = V c main_v54 (ix2 ((((cfg3.win 6).blk t).view.emb j) 0) k)
    congr 1
    funext a; apply Fin.ext
    match a with
    | ⟨0, _⟩ => show win3_0.index t (0 : Fin 2) * 5000 + 1 * (j 0).val = win3_6.index t (0 : Fin 2) * 5000 + 1 * (j 0).val; omega
    | ⟨1, _⟩ => show win3_0.index t (1 : Fin 2) * 128 + 1 * k.val = k.val; omega
  · intro k
    show V c main_v37 (((cfg3.win 1).blk t).view.emb (ix2 (j 0) k)) = V c main_v37 (ix2 ((((cfg3.win 6).blk t).view.emb j) 0) k)
    congr 1
    funext a; apply Fin.ext
    match a with
    | ⟨0, _⟩ => show win3_1.index t (0 : Fin 2) * 5000 + 1 * (j 0).val = win3_6.index t (0 : Fin 2) * 5000 + 1 * (j 0).val; omega
    | ⟨1, _⟩ => show win3_1.index t (1 : Fin 2) * 128 + 1 * k.val = k.val; omega
  · show V c main_v12 (((cfg3.win 2).blk t).view.emb (ix2 (j 0) (0 : Fin 1))) = V c main_v12 (ix2 ((((cfg3.win 6).blk t).view.emb j) 0) (0 : Fin 1))
    congr 1
    funext a; apply Fin.ext
    match a with
    | ⟨0, _⟩ => show win3_2.index t (0 : Fin 2) * 5000 + 1 * (j 0).val = win3_6.index t (0 : Fin 2) * 5000 + 1 * (j 0).val; omega
    | ⟨1, _⟩ => show win3_2.index t (1 : Fin 2) * 1 + 1 * 0 = 0; omega

/-- An index of the output array is in point `t`'s block when each coordinate is in the block's range on its axis. -/
theorem mem_blk3 (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v62).slice (win3_6.rect t)).set ↔ _
  rw [View.set_slice_whole, Rect.mem_set_unit]
  exact Iff.rfl

/-- The twenty row blocks tile the output: row `r` is in the block of point `r / 5000`. -/
theorem cover3 (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have hN : (i 0).val / 5000 < grid3.N := by rw [N_3]; omega
  refine ⟨⟨(i 0).val / 5000, hN⟩, flush3_6 _, ?_⟩
  rw [mem_blk3]
  obtain ⟨e0, e1, e2, e3, e4, e5, e6, e7, e8, e9, e10, e11, e12, e13⟩ := idx3 ⟨(i 0).val / 5000, hN⟩
  intro a
  match a with
  | ⟨0, _⟩ =>
    show win3_6.index ⟨(i 0).val / 5000, hN⟩ (0 : Fin 2) * 5000 ≤ (i 0).val ∧ (i 0).val < win3_6.index ⟨(i 0).val / 5000, hN⟩ (0 : Fin 2) * 5000 + 5000
    have hrow : win3_6.index ⟨(i 0).val / 5000, hN⟩ (0 : Fin 2) = (i 0).val / 5000 := e12
    omega
  | ⟨1, _⟩ =>
    show win3_6.index ⟨(i 0).val / 5000, hN⟩ (1 : Fin 2) * 128 ≤ (i 1).val ∧ (i 1).val < win3_6.index ⟨(i 0).val / 5000, hN⟩ (1 : Fin 2) * 128 + 128
    omega

/-- After region 3 its output array holds the layer of the arrays the region found. -/
theorem region3 (c : Dev nD) : (dat3 (F := Ideal) V c).arrAt 6 cfg3.N = out3 V c :=
  (dat3 V c).arrAt_eq_of_cover 6 (out3 V c) (fun t _ => flushed3_eq V c t) cover3

/-! ## Region 4: the last layer's result -/

/-- Where the windows of region 4 sit at each grid point: the row-blocked ones at block row `t`, the others at the origin. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- The layer of the arrays region 4 finds. -/
def out4 (c : Dev nD) : Mat 100000 128 :=
  comb (n := 100000) (V c main_v74) (V c main_v62) (V c main_v12) (tr (V c main_arg7)) (rowOf (V c main_v75)) (tr (V c main_arg9))

theorem wlblk4 (c : Dev nD) (t : Fin cfg4.N) : (iblk4 V c 3 t : Mat 128 128) = V c main_arg7 := by
  obtain ⟨e0, e1, e2, e3, e4, e5, e6, e7, e8, e9, e10, e11, e12, e13⟩ := idx4 t
  funext y
  show V c main_arg7 (((cfg4.win 3).blk t).view.emb y) = V c main_arg7 y
  congr 1
  funext a; apply Fin.ext
  match a with
  | ⟨0, _⟩ => show win4_3.index t (0 : Fin 2) * 128 + 1 * (y 0).val = (y 0).val; omega
  | ⟨1, _⟩ => show win4_3.index t (1 : Fin 2) * 128 + 1 * (y 1).val = (y 1).val; omega

theorem bblk4 (c : Dev nD) (t : Fin cfg4.N) : (iblk4 V c 4 t : Mat 1 128) = V c main_v75 := by
  obtain ⟨e0, e1, e2, e3, e4, e5, e6, e7, e8, e9, e10, e11, e12, e13⟩ := idx4 t
  funext y
  show V c main_v75 (((cfg4.win 4).blk t).view.emb y) = V c main_v75 y
  congr 1
  funext a; apply Fin.ext
  match a with
  | ⟨0, _⟩ => show win4_4.index t (0 : Fin 2) * 1 + 1 * (y 0).val = (y 0).val; omega
  | ⟨1, _⟩ => show win4_4.index t (1 : Fin 2) * 128 + 1 * (y 1).val = (y 1).val; omega

theorem wrblk4 (c : Dev nD) (t : Fin cfg4.N) : (iblk4 V c 5 t : Mat 128 128) = V c main_arg9 := by
  obtain ⟨e0, e1, e2, e3, e4, e5, e6, e7, e8, e9, e10, e11, e12, e13⟩ := idx4 t
  funext y
  show V c main_arg9 (((cfg4.win 5).blk t).view.emb y) = V c main_arg9 y
  congr 1
  funext a; apply Fin.ext
  match a with
  | ⟨0, _⟩ => show win4_5.index t (0 : Fin 2) * 128 + 1 * (y 0).val = (y 0).val; omega
  | ⟨1, _⟩ => show win4_5.index t (1 : Fin 2) * 128 + 1 * (y 1).val = (y 1).val; omega

/-- What point `t` of region 4 writes back is its row block of the layer. -/
theorem flushed4_eq (c : Dev nD) (t : Fin cfg4.N) :
    (dat4 (F := Ideal) V c).flushed 6 t = ((cfg4.win 6).blk t).view.read (Elt Ideal) (out4 V c) := by
  show (cfg4.win 6).cut (grid4.coords t) ((dat4 V c).after 6 t) = _
  rw [after4_6]
  unfold out4_6
  rw [View.canon_unit_zero hz]
  simp only [View.ld_unit_zero (S := S5000x128) hz, View.ld_unit_zero (S := S5000x1) hz, View.ld_unit_zero (S := S128x128) hz, View.ld_unit_zero (S := S1x128) hz]
  rw [k4_pay1_eq, wlblk4 V c t, bblk4 V c t, wrblk4 V c t]
  obtain ⟨e0, e1, e2, e3, e4, e5, e6, e7, e8, e9, e10, e11, e12, e13⟩ := idx4 t
  funext j
  refine comb_at (V c main_v74) (V c main_v62) (V c main_v12) (iblk4 V c 0 t) (iblk4 V c 1 t) (iblk4 V c 2 t) _ _ _ j (((cfg4.win 6).blk t).view.emb j) ?_ ?_ ?_ ?_
  · show win4_6.index t (1 : Fin 2) * 128 + 1 * (j 1).val = (j 1).val; omega
  · intro k
    show V c main_v74 (((cfg4.win 0).blk t).view.emb (ix2 (j 0) k)) = V c main_v74 (ix2 ((((cfg4.win 6).blk t).view.emb j) 0) k)
    congr 1
    funext a; apply Fin.ext
    match a with
    | ⟨0, _⟩ => show win4_0.index t (0 : Fin 2) * 5000 + 1 * (j 0).val = win4_6.index t (0 : Fin 2) * 5000 + 1 * (j 0).val; omega
    | ⟨1, _⟩ => show win4_0.index t (1 : Fin 2) * 128 + 1 * k.val = k.val; omega
  · intro k
    show V c main_v62 (((cfg4.win 1).blk t).view.emb (ix2 (j 0) k)) = V c main_v62 (ix2 ((((cfg4.win 6).blk t).view.emb j) 0) k)
    congr 1
    funext a; apply Fin.ext
    match a with
    | ⟨0, _⟩ => show win4_1.index t (0 : Fin 2) * 5000 + 1 * (j 0).val = win4_6.index t (0 : Fin 2) * 5000 + 1 * (j 0).val; omega
    | ⟨1, _⟩ => show win4_1.index t (1 : Fin 2) * 128 + 1 * k.val = k.val; omega
  · show V c main_v12 (((cfg4.win 2).blk t).view.emb (ix2 (j 0) (0 : Fin 1))) = V c main_v12 (ix2 ((((cfg4.win 6).blk t).view.emb j) 0) (0 : Fin 1))
    congr 1
    funext a; apply Fin.ext
    match a with
    | ⟨0, _⟩ => show win4_2.index t (0 : Fin 2) * 5000 + 1 * (j 0).val = win4_6.index t (0 : Fin 2) * 5000 + 1 * (j 0).val; omega
    | ⟨1, _⟩ => show win4_2.index t (1 : Fin 2) * 1 + 1 * 0 = 0; omega

/-- An index of the output array is in point `t`'s block when each coordinate is in the block's range on its axis. -/
theorem mem_blk4 (t : Fin cfg4.N) (i : S100000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v76).slice (win4_6.rect t)).set ↔ _
  rw [View.set_slice_whole, Rect.mem_set_unit]
  exact Iff.rfl

/-- The twenty row blocks tile the output: row `r` is in the block of point `r / 5000`. -/
theorem cover4 (i : S100000x128.Idx) :
    ∃ t : Fin cfg4.N, (cfg4.win 6).flush t = true ∧ i ∈ ((cfg4.win 6).blk t).view.set := by
  have hi0 : (i 0).val < 100000 := (i 0).isLt
  have hi1 : (i 1).val < 128 := (i 1).isLt
  have hN : (i 0).val / 5000 < grid4.N := by rw [N_4]; omega
  refine ⟨⟨(i 0).val / 5000, hN⟩, flush4_6 _, ?_⟩
  rw [mem_blk4]
  obtain ⟨e0, e1, e2, e3, e4, e5, e6, e7, e8, e9, e10, e11, e12, e13⟩ := idx4 ⟨(i 0).val / 5000, hN⟩
  intro a
  match a with
  | ⟨0, _⟩ =>
    show win4_6.index ⟨(i 0).val / 5000, hN⟩ (0 : Fin 2) * 5000 ≤ (i 0).val ∧ (i 0).val < win4_6.index ⟨(i 0).val / 5000, hN⟩ (0 : Fin 2) * 5000 + 5000
    have hrow : win4_6.index ⟨(i 0).val / 5000, hN⟩ (0 : Fin 2) = (i 0).val / 5000 := e12
    omega
  | ⟨1, _⟩ =>
    show win4_6.index ⟨(i 0).val / 5000, hN⟩ (1 : Fin 2) * 128 ≤ (i 1).val ∧ (i 1).val < win4_6.index ⟨(i 0).val / 5000, hN⟩ (1 : Fin 2) * 128 + 128
    omega

/-- After region 4 its output array holds the layer of the arrays the region found. -/
theorem region4 (c : Dev nD) : (dat4 (F := Ideal) V c).arrAt 6 cfg4.N = out4 V c :=
  (dat4 V c).arrAt_eq_of_cover 6 (out4 V c) (fun t _ => flushed4_eq V c t) cover4

end Cert.KerRegions

end
-- ==== Proof.KerKeep.lean ====
/-
  Which buffers each segment of the kernel program leaves alone.

  A pipelined region changes its output array and nothing else: an input array is only read, and a buffer that is no
  operand of the region is not touched. A stretch of host operations changes the buffers its operations write and
  nothing else.
-/
import proofs.«161229_j45835890983353_2_alg».proof.Proof.Gen.KernelIdeal.Frame

set_option maxRecDepth 16384

noncomputable section

namespace Cert.KerKeep

open Cert.KernelIdeal Cert.KernelIdeal.Gen
open Idealize.ShloMosaic Idealize.ShloMosaic.TcCoe Idealize.SL.Sem
open Idealize.ShloMosaic.Pipeline (Dat)

variable {F : FTy → Type} [FloatOps F]

variable (m : (ℓ : Loc nD τ sig) → Buf (Elt F) ℓ) (ρ : Dev nD → PrngReg)

/-! ## The regions -/

/-- Region 0 changes no buffer but its output array. -/
theorem keep_r0 (c : Dev nD) (b : Ref sig .tc) (hb : b ≠ main_v18) :
    W2 m ρ c (Proc.devRef .tc b) = W1 m ρ c (Proc.devRef .tc b) := by
  by_cases h : ∃ w, Pipeline.arrRef spec0 w = b
  · obtain ⟨w, rfl⟩ := h
    rw [W2_arr]
    match w with
    | ⟨0, _⟩ => exact ((dat0 (V1 m ρ) c).arrAt_in 0 rfl _).trans (A_eq0 (V1 m ρ) c 0)
    | ⟨1, _⟩ => exact ((dat0 (V1 m ρ) c).arrAt_in 1 rfl _).trans (A_eq0 (V1 m ρ) c 1)
    | ⟨2, _⟩ => exact ((dat0 (V1 m ρ) c).arrAt_in 2 rfl _).trans (A_eq0 (V1 m ρ) c 2)
    | ⟨3, _⟩ => exact absurd rfl hb
    | ⟨_ + 4, h⟩ => exact absurd h (Nat.not_lt.2 (Nat.le_add_left _ _))
  · exact W2_of_ne m ρ c b fun w e => h ⟨w, e⟩

/-- Region 1 changes no buffer but its output array. -/
theorem keep_r1 (c : Dev nD) (b : Ref sig .tc) (hb : b ≠ main_v37) :
    W4 m ρ c (Proc.devRef .tc b) = W3 m ρ c (Proc.devRef .tc b) := by
  by_cases h : ∃ w, Pipeline.arrRef spec1 w = b
  · obtain ⟨w, rfl⟩ := h
    rw [W4_arr]
    match w with
    | ⟨0, _⟩ => exact ((dat1 (V3 m ρ) c).arrAt_in 0 rfl _).trans (A_eq1 (V3 m ρ) c 0)
    | ⟨1, _⟩ => exact ((dat1 (V3 m ρ) c).arrAt_in 1 rfl _).trans (A_eq1 (V3 m ρ) c 1)
    | ⟨2, _⟩ => exact ((dat1 (V3 m ρ) c).arrAt_in 2 rfl _).trans (A_eq1 (V3 m ρ) c 2)
    | ⟨3, _⟩ => exact ((dat1 (V3 m ρ) c).arrAt_in 3 rfl _).trans (A_eq1 (V3 m ρ) c 3)
    | ⟨4, _⟩ => exact ((dat1 (V3 m ρ) c).arrAt_in 4 rfl _).trans (A_eq1 (V3 m ρ) c 4)
    | ⟨5, _⟩ => exact ((dat1 (V3 m ρ) c).arrAt_in 5 rfl _).trans (A_eq1 (V3 m ρ) c 5)
    | ⟨6, _⟩ => exact absurd rfl hb
    | ⟨_ + 7, h⟩ => exact absurd h (Nat.not_lt.2 (Nat.le_add_left _ _))
  · exact W4_of_ne m ρ c b fun w e => h ⟨w, e⟩

/-- Region 2 changes no buffer but its output array. -/
theorem keep_r2 (c : Dev nD) (b : Ref sig .tc) (hb : b ≠ main_v43) :
    W6 m ρ c (Proc.devRef .tc b) = W5 m ρ c (Proc.devRef .tc b) := by
  by_cases h : ∃ w, Pipeline.arrRef spec2 w = b
  · obtain ⟨w, rfl⟩ := h
    rw [W6_arr]
    match w with
    | ⟨0, _⟩ => exact ((dat2 (V5 m ρ) c).arrAt_in 0 rfl _).trans (A_eq2 (V5 m ρ) c 0)
    | ⟨1, _⟩ => exact ((dat2 (V5 m ρ) c).arrAt_in 1 rfl _).trans (A_eq2 (V5 m ρ) c 1)
    | ⟨2, _⟩ => exact ((dat2 (V5 m ρ) c).arrAt_in 2 rfl _).trans (A_eq2 (V5 m ρ) c 2)
    | ⟨3, _⟩ => exact absurd rfl hb
    | ⟨_ + 4, h⟩ => exact absurd h (Nat.not_lt.2 (Nat.le_add_left _ _))
  · exact W6_of_ne m ρ c b fun w e => h ⟨w, e⟩

/-- Region 3 changes no buffer but its output array. -/
theorem keep_r3 (c : Dev nD) (b : Ref sig .tc) (hb : b ≠ main_v62) :
    W8 m ρ c (Proc.devRef .tc b) = W7 m ρ c (Proc.devRef .tc b) := by
  by_cases h : ∃ w, Pipeline.arrRef spec3 w = b
  · obtain ⟨w, rfl⟩ := h
    rw [W8_arr]
    match w with
    | ⟨0, _⟩ => exact ((dat3 (V7 m ρ) c).arrAt_in 0 rfl _).trans (A_eq3 (V7 m ρ) c 0)
    | ⟨1, _⟩ => exact ((dat3 (V7 m ρ) c).arrAt_in 1 rfl _).trans (A_eq3 (V7 m ρ) c 1)
    | ⟨2, _⟩ => exact ((dat3 (V7 m ρ) c).arrAt_in 2 rfl _).trans (A_eq3 (V7 m ρ) c 2)
    | ⟨3, _⟩ => exact ((dat3 (V7 m ρ) c).arrAt_in 3 rfl _).trans (A_eq3 (V7 m ρ) c 3)
    | ⟨4, _⟩ => exact ((dat3 (V7 m ρ) c).arrAt_in 4 rfl _).trans (A_eq3 (V7 m ρ) c 4)
    | ⟨5, _⟩ => exact ((dat3 (V7 m ρ) c).arrAt_in 5 rfl _).trans (A_eq3 (V7 m ρ) c 5)
    | ⟨6, _⟩ => exact absurd rfl hb
    | ⟨_ + 7, h⟩ => exact absurd h (Nat.not_lt.2 (Nat.le_add_left _ _))
  · exact W8_of_ne m ρ c b fun w e => h ⟨w, e⟩

/-- Region 4 changes no buffer but its output array. -/
theorem keep_r4 (c : Dev nD) (b : Ref sig .tc) (hb : b ≠ main_v76) :
    W10 m ρ c (Proc.devRef .tc b) = W9 m ρ c (Proc.devRef .tc b) := by
  by_cases h : ∃ w, Pipeline.arrRef spec4 w = b
  · obtain ⟨w, rfl⟩ := h
    rw [W10_arr]
    match w with
    | ⟨0, _⟩ => exact ((dat4 (V9 m ρ) c).arrAt_in 0 rfl _).trans (A_eq4 (V9 m ρ) c 0)
    | ⟨1, _⟩ => exact ((dat4 (V9 m ρ) c).arrAt_in 1 rfl _).trans (A_eq4 (V9 m ρ) c 1)
    | ⟨2, _⟩ => exact ((dat4 (V9 m ρ) c).arrAt_in 2 rfl _).trans (A_eq4 (V9 m ρ) c 2)
    | ⟨3, _⟩ => exact ((dat4 (V9 m ρ) c).arrAt_in 3 rfl _).trans (A_eq4 (V9 m ρ) c 3)
    | ⟨4, _⟩ => exact ((dat4 (V9 m ρ) c).arrAt_in 4 rfl _).trans (A_eq4 (V9 m ρ) c 4)
    | ⟨5, _⟩ => exact ((dat4 (V9 m ρ) c).arrAt_in 5 rfl _).trans (A_eq4 (V9 m ρ) c 5)
    | ⟨6, _⟩ => exact absurd rfl hb
    | ⟨_ + 7, h⟩ => exact absurd h (Nat.not_lt.2 (Nat.le_add_left _ _))
  · exact W10_of_ne m ρ c b fun w e => h ⟨w, e⟩

/-! ## The stretches of host operations -/

/-- The buffers the host operations between the regions write, stretch 0. -/
def writes0 : List (Ref sig .tc) := [main_v0, main_v1, main_v2, main_v3, main_cst, main_v4, main_cst_0, main_v5, main_v6, main_v7, main_cst_1, main_v8, main_v9, main_cst_2, main_v10, main_v11, main_v12, main_v13, main_v14, main_v15, main_v16, main_v17]

theorem hW0 : (hostOps0 : List (HloOp τ sig (Elt F))).Forall fun op => op.writes ⊆ (writes0.map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer stretch 0 does not write keeps its contents. -/
theorem keep_s0 (U : Valuation τ sig (Elt F)) (b : Ref sig .tc) (hb : b ∉ writes0) :
    StableHlo.after hostOps0 U (Proc.devRef .tc b) = U (Proc.devRef .tc b) :=
  StableHlo.after_of_writes_sub hostOps0 U hW0 hb

/-- The buffers the host operations between the regions write, stretch 1. -/
def writes1 : List (Ref sig .tc) := [main_c, main_v19, main_v20, main_c_3, main_v21, main_v22, main_v23, main_v24, main_v25, main_v26, main_cst_4, main_v27, main_v28, main_v29, main_v30, main_v31, main_v32, main_v33, main_v34, main_v35, main_v36]

theorem hW1 : (hostOps1 : List (HloOp τ sig (Elt F))).Forall fun op => op.writes ⊆ (writes1.map (Proc.devRef (τ := τ) .tc)).toFinset := by
  simp only [hostOps1, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer stretch 1 does not write keeps its contents. -/
theorem keep_s1 (U : Valuation τ sig (Elt F)) (b : Ref sig .tc) (hb : b ∉ writes1) :
    StableHlo.after hostOps1 U (Proc.devRef .tc b) = U (Proc.devRef .tc b) :=
  StableHlo.after_of_writes_sub hostOps1 U hW1 hb

/-- The buffers the host operations between the regions write, stretch 2. -/
def writes2 : List (Ref sig .tc) := [main_v38, main_v39, main_v40, main_v41, main_v42]

theorem hW2 : (hostOps2 : List (HloOp τ sig (Elt F))).Forall fun op => op.writes ⊆ (writes2.map (Proc.devRef (τ := τ) .tc)).toFinset := by
  simp only [hostOps2, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer stretch 2 does not write keeps its contents. -/
theorem keep_s2 (U : Valuation τ sig (Elt F)) (b : Ref sig .tc) (hb : b ∉ writes2) :
    StableHlo.after hostOps2 U (Proc.devRef .tc b) = U (Proc.devRef .tc b) :=
  StableHlo.after_of_writes_sub hostOps2 U hW2 hb

/-- The buffers the host operations between the regions write, stretch 3. -/
def writes3 : List (Ref sig .tc) := [main_c_5, main_v44, main_v45, main_c_6, main_v46, main_v47, main_v48, main_v49, main_v50, main_v51, main_cst_7, main_v52, main_v53, main_v54, main_v55, main_v56, main_v57, main_v58, main_v59, main_v60, main_v61]

theorem hW3 : (hostOps3 : List (HloOp τ sig (Elt F))).Forall fun op => op.writes ⊆ (writes3.map (Proc.devRef (τ := τ) .tc)).toFinset := by
  simp only [hostOps3, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer stretch 3 does not write keeps its contents. -/
theorem keep_s3 (U : Valuation τ sig (Elt F)) (b : Ref sig .tc) (hb : b ∉ writes3) :
    StableHlo.after hostOps3 U (Proc.devRef .tc b) = U (Proc.devRef .tc b) :=
  StableHlo.after_of_writes_sub hostOps3 U hW3 hb

/-- The buffers the host operations between the regions write, stretch 4. -/
def writes4 : List (Ref sig .tc) := [main_v63, main_c_8, main_v64, main_v65, main_c_9, main_v66, main_v67, main_v68, main_v69, main_v70, main_v71, main_cst_10, main_v72, main_v73, main_v74, main_v75]

theorem hW4 : (hostOps4 : List (HloOp τ sig (Elt F))).Forall fun op => op.writes ⊆ (writes4.map (Proc.devRef (τ := τ) .tc)).toFinset := by
  simp only [hostOps4, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer stretch 4 does not write keeps its contents. -/
theorem keep_s4 (U : Valuation τ sig (Elt F)) (b : Ref sig .tc) (hb : b ∉ writes4) :
    StableHlo.after hostOps4 U (Proc.devRef .tc b) = U (Proc.devRef .tc b) :=
  StableHlo.after_of_writes_sub hostOps4 U hW4 hb

end Cert.KerKeep

end
-- ==== Proof.RefNet.lean ====
/-
  The reference program, read one group of operations at a time, is the network of whole-array layers.

  Its messages are `relu` of a dense layer (a product with the transposed weights plus the bias broadcast over the
  rows), its aggregation gathers the message rows at the edges' sources and adds them into a zero array at the
  edges' targets, and each layer combines the aggregate scaled by the inverse degrees with the features; the inner
  layers divide every row by its norm floored at a small constant and apply `relu`.
-/
import proofs.«161229_j45835890983353_2_alg».proof.Proof.Gen.ReferenceIdeal.Read
import proofs.«161229_j45835890983353_2_alg».proof.Proof.LibSageNet
import proofs.«161229_j45835890983353_2_alg».proof.Proof.LibKeepdims

noncomputable section

namespace Cert.RefNet

open Idealize.ShloMosaic Idealize.ShloMosaic.ValueIdx Cert.ReferenceIdeal Cert.ReferenceIdeal.Read Cert.Layers Cert.Sage

/-- The reference's aggregation: the rows of `H` gathered at the edges' sources (negative ones wrapped once), added
    into the zero array at the edges' targets. -/
def agg (x1 : (⟨S2x1600000, .i32⟩ : BufTy).Contents (Elt Ideal)) (H : (⟨S100000x128, .f32⟩ : BufTy).Contents (Elt Ideal)) :
    (⟨S100000x128, .f32⟩ : BufTy).Contents (Elt Ideal) :=
  Host.scatterAdd (F := Ideal) (φ := .f32) scatter_S100000x128_S1600000x1_S1600000x128_1_0_0_1 (val_main_v36 (F := Ideal)) (val_main_v37 (F := Ideal) x1)
    (Host.gather gather_S100000x128_S1600000x1_S1600000x128_1_0_n_n_0_1_1128 H (val_main_v34 (F := Ideal) x1))

/-! ## The reference's groups of operations at its own sizes -/

/-- The reference's product record is the plain product. -/
theorem dot_eq (X : FVec Ideal S100000x128 .f32) (W : FVec Ideal S128x128 .f32) :
    Host.dotGeneral (F := Ideal) dot_S100000x128_S128x128_S100000x128_1_0_0_1_n_n none X W = mm X W :=
  host_dot _ rfl rfl (fun _ _ => rfl) (fun _ _ => rfl) (fun _ _ => rfl) (fun _ _ => rfl) none X W

open Cert.ReferenceIdeal.Gen

/-- At the reference's sizes: a product, the bias broadcast to one row and down the rows, and the maximum with zero
    are `relu` of the dense layer. -/
theorem dense_eq (X : FVec Ideal S100000x128 .f32) (W : FVec Ideal S128x128 .f32) (b : FVec Ideal S128 .f32) :
    maximumf (addf (Host.dotGeneral (F := Ideal) dot_S100000x128_S128x128_S100000x128_1_0_0_1_n_n none X W)
        (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32)) = relu (dense X W b) := by
  rw [dot_eq, host_addRow, host_relu]
  rfl

/-- At the reference's sizes the host's combination is `comb`. -/
theorem comb_eq (A X : FVec Ideal S100000x128 .f32) (I : FVec Ideal S100000x1 .f32) (Wl Wr : FVec Ideal S128x128 .f32)
    (b : FVec Ideal S128 .f32) :
    addf (addf (Host.dotGeneral (F := Ideal) dot_S100000x128_S128x128_S100000x128_1_0_0_1_n_n none
          (mulf A (broadcastInDim S100000x128 ![0, 1] bcast_S100000x1_S100000x128_0_1 I)) Wl)
        (broadcastInDim S100000x128 ![0, 1] bcast_S1x128_S100000x128_0_1 (broadcastInDim S1x128 ![1] bcast_S128_S1x128_1 b)))
      (Host.dotGeneral (F := Ideal) dot_S100000x128_S128x128_S100000x128_1_0_0_1_n_n none X Wr) = comb A X I Wl b Wr :=
  host_comb _ rfl rfl (fun _ _ => rfl) (fun _ _ => rfl) (fun _ _ => rfl) (fun _ _ => rfl) A X I Wl Wr b _ _ _

/-- At the reference's sizes the host's row normalisation followed by the maximum with zero is `relu` of `unit`. -/
theorem unit_relu_eq (Y : FVec Ideal S100000x128 .f32) :
    maximumf (Host.divf Y (broadcastInDim S100000x128 ![0, 1] bcast_S100000x1_S100000x128_0_1
        (maximumf (Host.sqrt (broadcastInDim S100000x1 ![0] bcast_S100000_S100000x1_0
            (Host.reduceAdd (mulf Y Y) (constant (F := Ideal) S_ .f32 0x00000000#32) reducesTo_S100000x128_S100000_d1 h_S_)))
          (broadcastInDim S100000x1 ![] bcast_S_S100000x1 (constant (F := Ideal) S_ .f32 0x2B8CBCCC#32)))))
      (broadcastInDim S100000x128 ![] bcast_S_S100000x128 (constant (F := Ideal) S_ .f32 0x00000000#32)) = relu (unit Y) := by
  rw [host_unit, host_relu]

/-! ### The edge arrays are computed three times, alike -/

theorem v76_eq (x1 : (⟨S2x1600000, .i32⟩ : BufTy).Contents (Elt Ideal)) : val_main_v76 (F := Ideal) x1 = val_main_v34 (F := Ideal) x1 := by
  unfold val_main_v76 val_main_v75 val_main_v72 val_main_v74 val_main_v71 val_main_v73 val_main_c_6 val_main_c_7
    val_main_v34 val_main_v33 val_main_v30 val_main_v32 val_main_v29 val_main_v31 val_main_c val_main_c_3
  rfl

theorem v102_eq (x1 : (⟨S2x1600000, .i32⟩ : BufTy).Contents (Elt Ideal)) : val_main_v102 (F := Ideal) x1 = val_main_v34 (F := Ideal) x1 := by
  unfold val_main_v102 val_main_v101 val_main_v98 val_main_v100 val_main_v97 val_main_v99 val_main_c_10 val_main_c_11
    val_main_v34 val_main_v33 val_main_v30 val_main_v32 val_main_v29 val_main_v31 val_main_c val_main_c_3
  rfl

theorem v78_eq : val_main_v78 (F := Ideal) = val_main_v36 (F := Ideal) := by
  unfold val_main_v78 val_main_cst_8 val_main_v36 val_main_cst_4
  rfl

theorem v104_eq : val_main_v104 (F := Ideal) = val_main_v36 (F := Ideal) := by
  unfold val_main_v104 val_main_cst_12 val_main_v36 val_main_cst_4
  rfl

theorem v79_eq (x1 : (⟨S2x1600000, .i32⟩ : BufTy).Contents (Elt Ideal)) : val_main_v79 (F := Ideal) x1 = val_main_v37 (F := Ideal) x1 := by
  unfold val_main_v79 val_main_v37
  rfl

theorem v105_eq (x1 : (⟨S2x1600000, .i32⟩ : BufTy).Contents (Elt Ideal)) : val_main_v105 (F := Ideal) x1 = val_main_v37 (F := Ideal) x1 := by
  unfold val_main_v105 val_main_v37
  rfl

/-! ### The first layer -/

theorem v28_eq (x0 : (⟨S100000x128, .f32⟩ : BufTy).Contents (Elt Ideal)) (x2 : (⟨S2x128x128, .f32⟩ : BufTy).Contents (Elt Ideal)) (x3 : (⟨S2x128, .f32⟩ : BufTy).Contents (Elt Ideal)) :
    val_main_v28 (F := Ideal) x0 x2 x3 = relu (dense x0 (val_main_v23 (F := Ideal) x2) (val_main_v22 (F := Ideal) x3)) := by
  unfold val_main_v28 val_main_v27 val_main_v24 val_main_v26 val_main_v25 val_main_call0_v0 val_main_call0_cst
  exact dense_eq _ _ _

theorem v38_eq (x0 : (⟨S100000x128, .f32⟩ : BufTy).Contents (Elt Ideal)) (x1 : (⟨S2x1600000, .i32⟩ : BufTy).Contents (Elt Ideal)) (x2 : (⟨S2x128x128, .f32⟩ : BufTy).Contents (Elt Ideal)) (x3 : (⟨S2x128, .f32⟩ : BufTy).Contents (Elt Ideal)) :
    val_main_v38 (F := Ideal) x0 x1 x2 x3 = agg x1 (val_main_v28 (F := Ideal) x0 x2 x3) := by
  unfold val_main_v38 val_main_v35 agg
  rfl

theorem v48_eq (x0 : (⟨S100000x128, .f32⟩ : BufTy).Contents (Elt Ideal)) (x1 : (⟨S2x1600000, .i32⟩ : BufTy).Contents (Elt Ideal)) (x2 : (⟨S2x128x128, .f32⟩ : BufTy).Contents (Elt Ideal)) (x3 : (⟨S2x128, .f32⟩ : BufTy).Contents (Elt Ideal)) (x4 : (⟨S2x128x128, .f32⟩ : BufTy).Contents (Elt Ideal)) (x5 : (⟨S2x128, .f32⟩ : BufTy).Contents (Elt Ideal)) (x6 : (⟨S2x128x128, .f32⟩ : BufTy).Contents (Elt Ideal)) :
    val_main_v48 (F := Ideal) x0 x1 x2 x3 x4 x5 x6 = comb (val_main_v38 (F := Ideal) x0 x1 x2 x3) x0 (val_main_v12 (F := Ideal) x1) (val_main_v41 (F := Ideal) x4) (val_main_v16 (F := Ideal) x5) (val_main_v46 (F := Ideal) x6) := by
  unfold val_main_v48 val_main_v45 val_main_v47 val_main_v42 val_main_v44 val_main_v43 val_main_v40 val_main_v39
  exact comb_eq _ _ _ _ _ _

theorem v54_eq (x0 : (⟨S100000x128, .f32⟩ : BufTy).Contents (Elt Ideal)) (x1 : (⟨S2x1600000, .i32⟩ : BufTy).Contents (Elt Ideal)) (x2 : (⟨S2x128x128, .f32⟩ : BufTy).Contents (Elt Ideal)) (x3 : (⟨S2x128, .f32⟩ : BufTy).Contents (Elt Ideal)) (x4 : (⟨S2x128x128, .f32⟩ : BufTy).Contents (Elt Ideal)) (x5 : (⟨S2x128, .f32⟩ : BufTy).Contents (Elt Ideal)) (x6 : (⟨S2x128x128, .f32⟩ : BufTy).Contents (Elt Ideal)) :
    val_main_v54 (F := Ideal) x0 x1 x2 x3 x4 x5 x6 = relu (unit (val_main_v48 (F := Ideal) x0 x1 x2 x3 x4 x5 x6)) := by
  unfold val_main_v54 val_main_v53 val_main_v52 val_main_v51 val_main_v50 val_main_cst_5 val_main_v49 val_main_call1_v2
    val_main_call1_v1 val_main_call1_cst val_main_call1_v0 val_main_call2_v0 val_main_call2_cst
  exact unit_relu_eq _

/-- The first layer's result. -/
theorem layer1_eq (x0 : (⟨S100000x128, .f32⟩ : BufTy).Contents (Elt Ideal)) (x1 : (⟨S2x1600000, .i32⟩ : BufTy).Contents (Elt Ideal)) (x2 : (⟨S2x128x128, .f32⟩ : BufTy).Contents (Elt Ideal)) (x3 : (⟨S2x128, .f32⟩ : BufTy).Contents (Elt Ideal)) (x4 : (⟨S2x128x128, .f32⟩ : BufTy).Contents (Elt Ideal)) (x5 : (⟨S2x128, .f32⟩ : BufTy).Contents (Elt Ideal)) (x6 : (⟨S2x128x128, .f32⟩ : BufTy).Contents (Elt Ideal)) :
    val_main_v54 (F := Ideal) x0 x1 x2 x3 x4 x5 x6 = inner (agg x1 (relu (dense x0 (val_main_v23 (F := Ideal) x2) (val_main_v22 (F := Ideal) x3)))) x0 (val_main_v12 (F := Ideal) x1)
      (val_main_v41 (F := Ideal) x4) (val_main_v16 (F := Ideal) x5) (val_main_v46 (F := Ideal) x6) := by
  rw [v54_eq, v48_eq, v38_eq, v28_eq]
  rfl

/-! ### The second layer -/

theorem v70_eq (x0 : (⟨S100000x128, .f32⟩ : BufTy).Contents (Elt Ideal)) (x1 : (⟨S2x1600000, .i32⟩ : BufTy).Contents (Elt Ideal)) (x2 : (⟨S2x128x128, .f32⟩ : BufTy).Contents (Elt Ideal)) (x3 : (⟨S2x128, .f32⟩ : BufTy).Contents (Elt Ideal)) (x4 : (⟨S2x128x128, .f32⟩ : BufTy).Contents (Elt Ideal)) (x5 : (⟨S2x128, .f32⟩ : BufTy).Contents (Elt Ideal)) (x6 : (⟨S2x128x128, .f32⟩ : BufTy).Contents (Elt Ideal)) :
    val_main_v70 (F := Ideal) x0 x1 x2 x3 x4 x5 x6 = relu (dense (val_main_v54 (F := Ideal) x0 x1 x2 x3 x4 x5 x6) (val_main_v65 (F := Ideal) x2) (val_main_v64 (F := Ideal) x3)) := by
  unfold val_main_v70 val_main_v69 val_main_v66 val_main_v68 val_main_v67 val_main_call3_v0 val_main_call3_cst
  exact dense_eq _ _ _

theorem v80_eq (x0 : (⟨S100000x128, .f32⟩ : BufTy).Contents (Elt Ideal)) (x1 : (⟨S2x1600000, .i32⟩ : BufTy).Contents (Elt Ideal)) (x2 : (⟨S2x128x128, .f32⟩ : BufTy).Contents (Elt Ideal)) (x3 : (⟨S2x128, .f32⟩ : BufTy).Contents (Elt Ideal)) (x4 : (⟨S2x128x128, .f32⟩ : BufTy).Contents (Elt Ideal)) (x5 : (⟨S2x128, .f32⟩ : BufTy).Contents (Elt Ideal)) (x6 : (⟨S2x128x128, .f32⟩ : BufTy).Contents (Elt Ideal)) :
    val_main_v80 (F := Ideal) x0 x1 x2 x3 x4 x5 x6 = agg x1 (val_main_v70 (F := Ideal) x0 x1 x2 x3 x4 x5 x6) := by
  unfold val_main_v80 val_main_v77 agg
  rw [v76_eq, v78_eq, v79_eq]

theorem v90_eq (x0 : (⟨S100000x128, .f32⟩ : BufTy).Contents (Elt Ideal)) (x1 : (⟨S2x1600000, .i32⟩ : BufTy).Contents (Elt Ideal)) (x2 : (⟨S2x128x128, .f32⟩ : BufTy).Contents (Elt Ideal)) (x3 : (⟨S2x128, .f32⟩ : BufTy).Contents (Elt Ideal)) (x4 : (⟨S2x128x128, .f32⟩ : BufTy).Contents (Elt Ideal)) (x5 : (⟨S2x128, .f32⟩ : BufTy).Contents (Elt Ideal)) (x6 : (⟨S2x128x128, .f32⟩ : BufTy).Contents (Elt Ideal)) :
    val_main_v90 (F := Ideal) x0 x1 x2 x3 x4 x5 x6 = comb (val_main_v80 (F := Ideal) x0 x1 x2 x3 x4 x5 x6) (val_main_v54 (F := Ideal) x0 x1 x2 x3 x4 x5 x6) (val_main_v12 (F := Ideal) x1) (val_main_v83 (F := Ideal) x4) (val_main_v58 (F := Ideal) x5) (val_main_v88 (F := Ideal) x6) := by
  unfold val_main_v90 val_main_v87 val_main_v89 val_main_v84 val_main_v86 val_main_v85 val_main_v82 val_main_v81
  exact comb_eq _ _ _ _ _ _

theorem v96_eq (x0 : (⟨S100000x128, .f32⟩ : BufTy).Contents (Elt Ideal)) (x1 : (⟨S2x1600000, .i32⟩ : BufTy).Contents (Elt Ideal)) (x2 : (⟨S2x128x128, .f32⟩ : BufTy).Contents (Elt Ideal)) (x3 : (⟨S2x128, .f32⟩ : BufTy).Contents (Elt Ideal)) (x4 : (⟨S2x128x128, .f32⟩ : BufTy).Contents (Elt Ideal)) (x5 : (⟨S2x128, .f32⟩ : BufTy).Contents (Elt Ideal)) (x6 : (⟨S2x128x128, .f32⟩ : BufTy).Contents (Elt Ideal)) :
    val_main_v96 (F := Ideal) x0 x1 x2 x3 x4 x5 x6 = relu (unit (val_main_v90 (F := Ideal) x0 x1 x2 x3 x4 x5 x6)) := by
  unfold val_main_v96 val_main_v95 val_main_v94 val_main_v93 val_main_v92 val_main_cst_9 val_main_v91 val_main_call4_v2
    val_main_call4_v1 val_main_call4_cst val_main_call4_v0 val_main_call5_v0 val_main_call5_cst
  exact unit_relu_eq _

/-- The second layer's result, from the first's. -/
theorem layer2_eq (x0 : (⟨S100000x128, .f32⟩ : BufTy).Contents (Elt Ideal)) (x1 : (⟨S2x1600000, .i32⟩ : BufTy).Contents (Elt Ideal)) (x2 : (⟨S2x128x128, .f32⟩ : BufTy).Contents (Elt Ideal)) (x3 : (⟨S2x128, .f32⟩ : BufTy).Contents (Elt Ideal)) (x4 : (⟨S2x128x128, .f32⟩ : BufTy).Contents (Elt Ideal)) (x5 : (⟨S2x128, .f32⟩ : BufTy).Contents (Elt Ideal)) (x6 : (⟨S2x128x128, .f32⟩ : BufTy).Contents (Elt Ideal)) :
    val_main_v96 (F := Ideal) x0 x1 x2 x3 x4 x5 x6 = inner (agg x1 (relu (dense (val_main_v54 (F := Ideal) x0 x1 x2 x3 x4 x5 x6) (val_main_v65 (F := Ideal) x2) (val_main_v64 (F := Ideal) x3)))) (val_main_v54 (F := Ideal) x0 x1 x2 x3 x4 x5 x6)
      (val_main_v12 (F := Ideal) x1) (val_main_v83 (F := Ideal) x4) (val_main_v58 (F := Ideal) x5) (val_main_v88 (F := Ideal) x6) := by
  rw [v96_eq, v90_eq, v80_eq, v70_eq]
  rfl

/-! ### The last layer -/

theorem v106_eq (x0 : (⟨S100000x128, .f32⟩ : BufTy).Contents (Elt Ideal)) (x1 : (⟨S2x1600000, .i32⟩ : BufTy).Contents (Elt Ideal)) (x2 : (⟨S2x128x128, .f32⟩ : BufTy).Contents (Elt Ideal)) (x3 : (⟨S2x128, .f32⟩ : BufTy).Contents (Elt Ideal)) (x4 : (⟨S2x128x128, .f32⟩ : BufTy).Contents (Elt Ideal)) (x5 : (⟨S2x128, .f32⟩ : BufTy).Contents (Elt Ideal)) (x6 : (⟨S2x128x128, .f32⟩ : BufTy).Contents (Elt Ideal)) :
    val_main_v106 (F := Ideal) x0 x1 x2 x3 x4 x5 x6 = agg x1 (val_main_v96 (F := Ideal) x0 x1 x2 x3 x4 x5 x6) := by
  unfold val_main_v106 val_main_v103 agg
  rw [v102_eq, v104_eq, v105_eq]

/-- The last layer's result, from the second's. -/
theorem out_eq (x0 : (⟨S100000x128, .f32⟩ : BufTy).Contents (Elt Ideal)) (x1 : (⟨S2x1600000, .i32⟩ : BufTy).Contents (Elt Ideal)) (x2 : (⟨S2x128x128, .f32⟩ : BufTy).Contents (Elt Ideal)) (x3 : (⟨S2x128, .f32⟩ : BufTy).Contents (Elt Ideal)) (x4 : (⟨S2x128x128, .f32⟩ : BufTy).Contents (Elt Ideal)) (x5 : (⟨S2x128, .f32⟩ : BufTy).Contents (Elt Ideal)) (x6 : (⟨S2x128x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) :
    val_main_v116 (F := Ideal) x0 x1 x2 x3 x4 x5 x6 x7 x8 x9 = comb (agg x1 (val_main_v96 (F := Ideal) x0 x1 x2 x3 x4 x5 x6)) (val_main_v96 (F := Ideal) x0 x1 x2 x3 x4 x5 x6) (val_main_v12 (F := Ideal) x1) (val_main_v109 (F := Ideal) x7) x8 (val_main_v114 (F := Ideal) x9) := by
  unfold val_main_v116 val_main_v113 val_main_v115 val_main_v110 val_main_v112 val_main_v111 val_main_v108 val_main_v107
  rw [v106_eq]
  exact comb_eq _ _ _ _ _ _

/-- The reference's result is the network of the argument arrays. -/
theorem result_eq (x0 : (⟨S100000x128, .f32⟩ : BufTy).Contents (Elt Ideal)) (x1 : (⟨S2x1600000, .i32⟩ : BufTy).Contents (Elt Ideal))
    (x2 : (⟨S2x128x128, .f32⟩ : BufTy).Contents (Elt Ideal)) (x3 : (⟨S2x128, .f32⟩ : BufTy).Contents (Elt Ideal))
    (x4 : (⟨S2x128x128, .f32⟩ : BufTy).Contents (Elt Ideal)) (x5 : (⟨S2x128, .f32⟩ : BufTy).Contents (Elt Ideal))
    (x6 : (⟨S2x128x128, .f32⟩ : BufTy).Contents (Elt Ideal)) (x7 : (⟨S128x128, .f32⟩ : BufTy).Contents (Elt Ideal))
    (x8 : (⟨S128, .f32⟩ : BufTy).Contents (Elt Ideal)) (x9 : (⟨S128x128, .f32⟩ : BufTy).Contents (Elt Ideal)) :
    val_main_v116 (F := Ideal) x0 x1 x2 x3 x4 x5 x6 x7 x8 x9
      = net (n := 100000) (d := 128) (agg x1) (val_main_v12 (F := Ideal) x1) x0
          (val_main_v23 (F := Ideal) x2) (val_main_v22 (F := Ideal) x3) (val_main_v41 (F := Ideal) x4) (val_main_v16 (F := Ideal) x5) (val_main_v46 (F := Ideal) x6)
          (val_main_v65 (F := Ideal) x2) (val_main_v64 (F := Ideal) x3) (val_main_v83 (F := Ideal) x4) (val_main_v58 (F := Ideal) x5) (val_main_v88 (F := Ideal) x6)
          (val_main_v109 (F := Ideal) x7) x8 (val_main_v114 (F := Ideal) x9) := by
  unfold net
  rw [out_eq, layer2_eq, layer1_eq]

end Cert.RefNet

end
-- ==== Proof.KerHost.lean ====
/-
  What the host operations between the regions compute, one buffer at a time, from the buffer contents they start from.

  Before the first region the host slices the edge list into sources and targets, counts the incoming edges of every
  node into the inverse-degree column, and slices the first layer's weights and bias. Before each later region it
  gathers the message rows at the (wrapped) sources and adds them into a zero array at the targets — the aggregation —
  and slices that layer's weights and bias. These are the operations the reference program applies to the same
  arrays, so each buffer is stated as the reference's own stage function of the contents read.
-/
import proofs.«161229_j45835890983353_2_alg».proof.Proof.Gen.KernelIdeal.Launch
import proofs.«161229_j45835890983353_2_alg».proof.Proof.Gen.ReferenceIdeal.Read
import proofs.«161229_j45835890983353_2_alg».proof.Proof.RefNet
import proofs.«161229_j45835890983353_2_alg».proof.Proof.KerLayers
import Idealize.ShloMosaic.Lib.StableHlo.Run

set_option maxRecDepth 16384

noncomputable section

namespace Cert.KerHost

open Cert.KernelIdeal Cert.KernelIdeal.Gen Cert.Layers Cert.Sage
open Idealize.ShloMosaic Idealize.ShloMosaic.TcCoe Idealize.ShloMosaic.ValueIdx Idealize.SL.Sem Idealize.ShloMosaic.StableHlo

/-- The aggregation over the edge list given as sources `e1` and targets `e3`: the rows of `H` gathered at the sources
    (a negative source wrapped once), added into the zero array at the targets. -/
def aggK (e1 e3 : (⟨S1600000, .i32⟩ : BufTy).Contents (Elt Ideal)) (H : (⟨S100000x128, .f32⟩ : BufTy).Contents (Elt Ideal)) :
    (⟨S100000x128, .f32⟩ : BufTy).Contents (Elt Ideal) :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 e3)
    (Host.gather gather_S100000x128_S1600000x1_S1600000x128_1_0_n_n_0_1_1128 H
      (broadcastInDim S1600000x1 ![0] bcast_S1600000_S1600000x1_0
        (select (cmpi .slt e1 (broadcastInDim S1600000 ![] bcast_S_S1600000 (constantI S_ 32 0#32)))
          (addi e1 (broadcastInDim S1600000 ![] bcast_S_S1600000 (constantI S_ 32 100000#32))) e1)))

/-- Over the sources and targets the reference slices out of the edge list, it is the reference's aggregation. -/
theorem aggK_eq (x1 : (⟨S2x1600000, .i32⟩ : BufTy).Contents (Elt Ideal)) :
    aggK (Cert.ReferenceIdeal.Read.val_main_v1 (F := Ideal) x1) (Cert.ReferenceIdeal.Read.val_main_v3 (F := Ideal) x1) = Cert.RefNet.agg x1 := by
  funext H
  unfold aggK Cert.RefNet.agg Cert.ReferenceIdeal.Read.val_main_v36 Cert.ReferenceIdeal.Read.val_main_cst_4 Cert.ReferenceIdeal.Read.val_main_v37 Cert.ReferenceIdeal.Read.val_main_v34 Cert.ReferenceIdeal.Read.val_main_v33
    Cert.ReferenceIdeal.Read.val_main_v30 Cert.ReferenceIdeal.Read.val_main_v32 Cert.ReferenceIdeal.Read.val_main_v29 Cert.ReferenceIdeal.Read.val_main_v31 Cert.ReferenceIdeal.Read.val_main_c Cert.ReferenceIdeal.Read.val_main_c_3
  rfl

/-- The transpose a body applies to a weight block is the reference's transposition. -/
theorem tr_eq (W : (⟨S128x128, .f32⟩ : BufTy).Contents (Elt Ideal)) :
    Cert.KerLayers.tr W = transpose Cert.ReferenceIdeal.S128x128 [1, 0] W Cert.ReferenceIdeal.Facts₀.transposes_S128x128_S128x128_1_0 := rfl

/-- A vector cast to one row, read back as a vector, is the vector. -/
theorem rowOf_cast (b : (⟨S128, .f32⟩ : BufTy).Contents (Elt Ideal)) :
    rowOf (shapeCast S1x128 b shapeCasts_S128_S1x128 : Mat 1 128) = b := by
  funext i
  obtain ⟨q, rfl⟩ : ∃ q : Fin 128, i = ix1 q := ⟨i 0, eq_ix1 i⟩
  show shapeCast S1x128 b shapeCasts_S128_S1x128 (ix2 (0 : Fin 1) q) = b (ix1 q)
  exact shapeCast_apply b shapeCasts_S128_S1x128 _ _ (by
    rw [Shape.rowMajor_val_two, Shape.rowMajor_val_one]
    show q.val = 0 * 128 + q.val
    omega)

variable (U : Valuation τ sig (Elt Ideal))

/-! ## Before region 0 -/

theorem s0_v1 : StableHlo.after hostOps0 U (Proc.devRef .tc main_v1) = Cert.ReferenceIdeal.Read.val_main_v1 (F := Ideal) (U (Proc.devRef .tc main_arg1)) := by
  after_results; rfl
theorem s0_v3 : StableHlo.after hostOps0 U (Proc.devRef .tc main_v3) = Cert.ReferenceIdeal.Read.val_main_v3 (F := Ideal) (U (Proc.devRef .tc main_arg1)) := by
  after_results; rfl
theorem s0_v12 : StableHlo.after hostOps0 U (Proc.devRef .tc main_v12) = Cert.ReferenceIdeal.Read.val_main_v12 (F := Ideal) (U (Proc.devRef .tc main_arg1)) := by
  after_results; rfl
theorem s0_v14 : StableHlo.after hostOps0 U (Proc.devRef .tc main_v14) = Cert.ReferenceIdeal.Read.val_main_v20 (F := Ideal) (U (Proc.devRef .tc main_arg2)) := by
  after_results; rfl
theorem s0_v17 : StableHlo.after hostOps0 U (Proc.devRef .tc main_v17)
    = shapeCast S1x128 (Cert.ReferenceIdeal.Read.val_main_v22 (F := Ideal) (U (Proc.devRef .tc main_arg3))) shapeCasts_S128_S1x128 := by
  after_results; rfl

/-! ## Before region 1 -/

set_option maxHeartbeats 4000000 in
theorem s1_v29 : StableHlo.after hostOps1 U (Proc.devRef .tc main_v29) = aggK (U (Proc.devRef .tc main_v1)) (U (Proc.devRef .tc main_v3)) (U (Proc.devRef .tc main_v18)) := by
  after_results; rfl
theorem s1_v31 : StableHlo.after hostOps1 U (Proc.devRef .tc main_v31) = Cert.ReferenceIdeal.Read.val_main_v14 (F := Ideal) (U (Proc.devRef .tc main_arg4)) := by
  after_results; rfl
theorem s1_v36 : StableHlo.after hostOps1 U (Proc.devRef .tc main_v36)
    = shapeCast S1x128 (Cert.ReferenceIdeal.Read.val_main_v16 (F := Ideal) (U (Proc.devRef .tc main_arg5))) shapeCasts_S128_S1x128 := by
  after_results; rfl
theorem s1_v35 : StableHlo.after hostOps1 U (Proc.devRef .tc main_v35) = Cert.ReferenceIdeal.Read.val_main_v18 (F := Ideal) (U (Proc.devRef .tc main_arg6)) := by
  after_results; rfl

/-! ## Before region 2 -/

theorem s2_v39 : StableHlo.after hostOps2 U (Proc.devRef .tc main_v39) = Cert.ReferenceIdeal.Read.val_main_v62 (F := Ideal) (U (Proc.devRef .tc main_arg2)) := by
  after_results; rfl
theorem s2_v42 : StableHlo.after hostOps2 U (Proc.devRef .tc main_v42)
    = shapeCast S1x128 (Cert.ReferenceIdeal.Read.val_main_v64 (F := Ideal) (U (Proc.devRef .tc main_arg3))) shapeCasts_S128_S1x128 := by
  after_results; rfl

/-! ## Before region 3 -/

set_option maxHeartbeats 4000000 in
theorem s3_v54 : StableHlo.after hostOps3 U (Proc.devRef .tc main_v54) = aggK (U (Proc.devRef .tc main_v1)) (U (Proc.devRef .tc main_v3)) (U (Proc.devRef .tc main_v43)) := by
  after_results; rfl
theorem s3_v56 : StableHlo.after hostOps3 U (Proc.devRef .tc main_v56) = Cert.ReferenceIdeal.Read.val_main_v56 (F := Ideal) (U (Proc.devRef .tc main_arg4)) := by
  after_results; rfl
theorem s3_v61 : StableHlo.after hostOps3 U (Proc.devRef .tc main_v61)
    = shapeCast S1x128 (Cert.ReferenceIdeal.Read.val_main_v58 (F := Ideal) (U (Proc.devRef .tc main_arg5))) shapeCasts_S128_S1x128 := by
  after_results; rfl
theorem s3_v60 : StableHlo.after hostOps3 U (Proc.devRef .tc main_v60) = Cert.ReferenceIdeal.Read.val_main_v60 (F := Ideal) (U (Proc.devRef .tc main_arg6)) := by
  after_results; rfl

/-! ## Before region 4 -/

set_option maxHeartbeats 4000000 in
theorem s4_v74 : StableHlo.after hostOps4 U (Proc.devRef .tc main_v74) = aggK (U (Proc.devRef .tc main_v1)) (U (Proc.devRef .tc main_v3)) (U (Proc.devRef .tc main_v62)) := by
  after_results; rfl
theorem s4_v75 : StableHlo.after hostOps4 U (Proc.devRef .tc main_v75) = shapeCast S1x128 (U (Proc.devRef .tc main_arg8)) shapeCasts_S128_S1x128 := by
  after_results; rfl

end Cert.KerHost

end
-- ==== Proof.KerValue.lean ====
/-
  The kernel program's result as the network of its argument arrays.

  Walking the program's boundaries in order: the edge sources and targets, the inverse-degree column and the argument
  arrays are written once (or never) and left alone by every later segment, so they are at every boundary what the
  first stretch of host operations made them. Each region's output is the layer of the arrays it finds, each
  aggregation the reference's aggregation of the previous region's output, each weight block the reference's slice;
  a bias vector cast to one row and read back is the vector. Substituting boundary by boundary gives the network.
-/
import proofs.«161229_j45835890983353_2_alg».proof.Proof.KerRegions
import proofs.«161229_j45835890983353_2_alg».proof.Proof.KerKeep
import proofs.«161229_j45835890983353_2_alg».proof.Proof.KerHost

set_option maxRecDepth 16384

noncomputable section

namespace Cert.KerValue

open Cert.KernelIdeal Cert.KernelIdeal.Gen Cert.KerLayers Cert.KerRegions Cert.KerKeep Cert.KerHost Cert.Layers Cert.Sage
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## Buffers no later segment changes -/

/-- A buffer that is no region's output and that no stretch after the first writes is, at every later boundary,
    what it is at the first region's entry. -/
theorem stay (b : Ref sig .tc) (o0 : b ≠ main_v18) (o1 : b ≠ main_v37) (o2 : b ≠ main_v43) (o3 : b ≠ main_v62) (o4 : b ≠ main_v76)
    (h1 : b ∉ writes1) (h2 : b ∉ writes2) (h3 : b ∉ writes3) (h4 : b ∉ writes4) :
    W2 m ρ c (Proc.devRef .tc b) = W1 m ρ c (Proc.devRef .tc b) ∧ W3 m ρ c (Proc.devRef .tc b) = W1 m ρ c (Proc.devRef .tc b)
    ∧ W4 m ρ c (Proc.devRef .tc b) = W1 m ρ c (Proc.devRef .tc b) ∧ W5 m ρ c (Proc.devRef .tc b) = W1 m ρ c (Proc.devRef .tc b)
    ∧ W6 m ρ c (Proc.devRef .tc b) = W1 m ρ c (Proc.devRef .tc b) ∧ W7 m ρ c (Proc.devRef .tc b) = W1 m ρ c (Proc.devRef .tc b)
    ∧ W8 m ρ c (Proc.devRef .tc b) = W1 m ρ c (Proc.devRef .tc b) ∧ W9 m ρ c (Proc.devRef .tc b) = W1 m ρ c (Proc.devRef .tc b)
    ∧ W10 m ρ c (Proc.devRef .tc b) = W1 m ρ c (Proc.devRef .tc b) := by
  have e2 := keep_r0 m ρ c b o0
  have e3 : W3 m ρ c (Proc.devRef .tc b) = W1 m ρ c (Proc.devRef .tc b) := (keep_s1 (W2 m ρ c) b h1).trans e2
  have e4 := (keep_r1 m ρ c b o1).trans e3
  have e5 : W5 m ρ c (Proc.devRef .tc b) = W1 m ρ c (Proc.devRef .tc b) := (keep_s2 (W4 m ρ c) b h2).trans e4
  have e6 := (keep_r2 m ρ c b o2).trans e5
  have e7 : W7 m ρ c (Proc.devRef .tc b) = W1 m ρ c (Proc.devRef .tc b) := (keep_s3 (W6 m ρ c) b h3).trans e6
  have e8 := (keep_r3 m ρ c b o3).trans e7
  have e9 : W9 m ρ c (Proc.devRef .tc b) = W1 m ρ c (Proc.devRef .tc b) := (keep_s4 (W8 m ρ c) b h4).trans e8
  have e10 := (keep_r4 m ρ c b o4).trans e9
  exact ⟨e2, e3, e4, e5, e6, e7, e8, e9, e10⟩

/-- An argument array is as launched at the first region's entry. -/
theorem first (b : Ref sig .tc) (h0 : b ∉ writes0) : W1 m ρ c (Proc.devRef .tc b) = m ((c : Thread nD τ).loc b) :=
  keep_s0 (W0 m ρ c) b h0

/-! ## The edge arrays and the inverse-degree column at the first region's entry -/

theorem src1 : W1 m ρ c (Proc.devRef .tc main_v1) = Cert.ReferenceIdeal.Read.val_main_v1 (F := Ideal) (m ((c : Thread nD τ).loc main_arg1)) := s0_v1 (W0 m ρ c)
theorem dst1 : W1 m ρ c (Proc.devRef .tc main_v3) = Cert.ReferenceIdeal.Read.val_main_v3 (F := Ideal) (m ((c : Thread nD τ).loc main_arg1)) := s0_v3 (W0 m ρ c)
theorem inv1 : W1 m ρ c (Proc.devRef .tc main_v12) = Cert.ReferenceIdeal.Read.val_main_v12 (F := Ideal) (m ((c : Thread nD τ).loc main_arg1)) := s0_v12 (W0 m ρ c)

/-! ## The network's intermediate arrays, over the reference's slices of the arguments -/

/-- The first layer's messages. -/
def H0 : Mat 100000 128 := relu (dense (n := 100000) (m ((c : Thread nD τ).loc main_arg0)) (Cert.ReferenceIdeal.Read.val_main_v23 (F := Ideal) (m ((c : Thread nD τ).loc main_arg2))) (Cert.ReferenceIdeal.Read.val_main_v22 (F := Ideal) (m ((c : Thread nD τ).loc main_arg3))))
/-- The first layer's result. -/
def X1 : Mat 100000 128 := inner (n := 100000) (Cert.RefNet.agg (m ((c : Thread nD τ).loc main_arg1)) (H0 m c)) (m ((c : Thread nD τ).loc main_arg0)) (Cert.ReferenceIdeal.Read.val_main_v12 (F := Ideal) (m ((c : Thread nD τ).loc main_arg1)))
  (Cert.ReferenceIdeal.Read.val_main_v41 (F := Ideal) (m ((c : Thread nD τ).loc main_arg4))) (Cert.ReferenceIdeal.Read.val_main_v16 (F := Ideal) (m ((c : Thread nD τ).loc main_arg5))) (Cert.ReferenceIdeal.Read.val_main_v46 (F := Ideal) (m ((c : Thread nD τ).loc main_arg6)))
/-- The second layer's messages. -/
def H1 : Mat 100000 128 := relu (dense (n := 100000) (X1 m c) (Cert.ReferenceIdeal.Read.val_main_v65 (F := Ideal) (m ((c : Thread nD τ).loc main_arg2))) (Cert.ReferenceIdeal.Read.val_main_v64 (F := Ideal) (m ((c : Thread nD τ).loc main_arg3))))
/-- The second layer's result. -/
def X2 : Mat 100000 128 := inner (n := 100000) (Cert.RefNet.agg (m ((c : Thread nD τ).loc main_arg1)) (H1 m c)) (X1 m c) (Cert.ReferenceIdeal.Read.val_main_v12 (F := Ideal) (m ((c : Thread nD τ).loc main_arg1)))
  (Cert.ReferenceIdeal.Read.val_main_v83 (F := Ideal) (m ((c : Thread nD τ).loc main_arg4))) (Cert.ReferenceIdeal.Read.val_main_v58 (F := Ideal) (m ((c : Thread nD τ).loc main_arg5))) (Cert.ReferenceIdeal.Read.val_main_v88 (F := Ideal) (m ((c : Thread nD τ).loc main_arg6)))

/-! ## Region by region -/

/-- After region 0 its output holds the first layer's messages. -/
theorem t0 : W2 m ρ c (Proc.devRef .tc main_v18) = H0 m c := by
  rw [W2_arr m ρ c 3, region0 (V1 m ρ) c]
  unfold out0 H0
  have a0 : V1 m ρ c main_arg0 = (m ((c : Thread nD τ).loc main_arg0)) := first m ρ c main_arg0 (by decide)
  have a1 : V1 m ρ c main_v14 = Cert.ReferenceIdeal.Read.val_main_v20 (F := Ideal) (m ((c : Thread nD τ).loc main_arg2)) := s0_v14 (W0 m ρ c)
  have a2 : V1 m ρ c main_v17 = shapeCast S1x128 (Cert.ReferenceIdeal.Read.val_main_v22 (F := Ideal) (m ((c : Thread nD τ).loc main_arg3))) shapeCasts_S128_S1x128 := s0_v17 (W0 m ρ c)
  rw [a0, a1, a2, rowOf_cast]
  rfl

/-- After region 1 its output holds the first layer's result. -/
theorem t1 : W4 m ρ c (Proc.devRef .tc main_v37) = X1 m c := by
  rw [W4_arr m ρ c 6, region1 (V3 m ρ) c]
  unfold out1 X1
  obtain ⟨s2, -⟩ := stay m ρ c main_v1 (by decide) (by decide) (by decide) (by decide) (by decide) (by decide) (by decide) (by decide) (by decide)
  obtain ⟨d2, -⟩ := stay m ρ c main_v3 (by decide) (by decide) (by decide) (by decide) (by decide) (by decide) (by decide) (by decide) (by decide)
  obtain ⟨-, i3, -⟩ := stay m ρ c main_v12 (by decide) (by decide) (by decide) (by decide) (by decide) (by decide) (by decide) (by decide) (by decide)
  obtain ⟨-, x3, -⟩ := stay m ρ c main_arg0 (by decide) (by decide) (by decide) (by decide) (by decide) (by decide) (by decide) (by decide) (by decide)
  obtain ⟨p2, -⟩ := stay m ρ c main_arg4 (by decide) (by decide) (by decide) (by decide) (by decide) (by decide) (by decide) (by decide) (by decide)
  obtain ⟨q2, -⟩ := stay m ρ c main_arg5 (by decide) (by decide) (by decide) (by decide) (by decide) (by decide) (by decide) (by decide) (by decide)
  obtain ⟨r2, -⟩ := stay m ρ c main_arg6 (by decide) (by decide) (by decide) (by decide) (by decide) (by decide) (by decide) (by decide) (by decide)
  have a0 : V3 m ρ c main_v29 = Cert.RefNet.agg (m ((c : Thread nD τ).loc main_arg1)) (H0 m c) := by
    refine (s1_v29 (W2 m ρ c)).trans ?_
    rw [s2, d2, src1, dst1, t0, aggK_eq]
  have a1 : V3 m ρ c main_arg0 = (m ((c : Thread nD τ).loc main_arg0)) := x3.trans (first m ρ c main_arg0 (by decide))
  have a2 : V3 m ρ c main_v12 = Cert.ReferenceIdeal.Read.val_main_v12 (F := Ideal) (m ((c : Thread nD τ).loc main_arg1)) := i3.trans (inv1 m ρ c)
  have a3 : V3 m ρ c main_v31 = Cert.ReferenceIdeal.Read.val_main_v14 (F := Ideal) (m ((c : Thread nD τ).loc main_arg4)) := by
    refine (s1_v31 (W2 m ρ c)).trans ?_
    rw [p2, first m ρ c main_arg4 (by decide)]
  have a4 : V3 m ρ c main_v36 = shapeCast S1x128 (Cert.ReferenceIdeal.Read.val_main_v16 (F := Ideal) (m ((c : Thread nD τ).loc main_arg5))) shapeCasts_S128_S1x128 := by
    refine (s1_v36 (W2 m ρ c)).trans ?_
    rw [q2, first m ρ c main_arg5 (by decide)]
  have a5 : V3 m ρ c main_v35 = Cert.ReferenceIdeal.Read.val_main_v18 (F := Ideal) (m ((c : Thread nD τ).loc main_arg6)) := by
    refine (s1_v35 (W2 m ρ c)).trans ?_
    rw [r2, first m ρ c main_arg6 (by decide)]
  rw [a0, a1, a2, a3, a4, a5, rowOf_cast]
  rfl

/-- After region 2 its output holds the second layer's messages. -/
theorem t2 : W6 m ρ c (Proc.devRef .tc main_v43) = H1 m c := by
  rw [W6_arr m ρ c 3, region2 (V5 m ρ) c]
  unfold out2 H1
  obtain ⟨-, -, p4, -⟩ := stay m ρ c main_arg2 (by decide) (by decide) (by decide) (by decide) (by decide) (by decide) (by decide) (by decide) (by decide)
  obtain ⟨-, -, q4, -⟩ := stay m ρ c main_arg3 (by decide) (by decide) (by decide) (by decide) (by decide) (by decide) (by decide) (by decide) (by decide)
  have a0 : V5 m ρ c main_v37 = X1 m c := (keep_s2 (W4 m ρ c) main_v37 (by decide)).trans (t1 m ρ c)
  have a1 : V5 m ρ c main_v39 = Cert.ReferenceIdeal.Read.val_main_v62 (F := Ideal) (m ((c : Thread nD τ).loc main_arg2)) := by
    refine (s2_v39 (W4 m ρ c)).trans ?_
    rw [p4, first m ρ c main_arg2 (by decide)]
  have a2 : V5 m ρ c main_v42 = shapeCast S1x128 (Cert.ReferenceIdeal.Read.val_main_v64 (F := Ideal) (m ((c : Thread nD τ).loc main_arg3))) shapeCasts_S128_S1x128 := by
    refine (s2_v42 (W4 m ρ c)).trans ?_
    rw [q4, first m ρ c main_arg3 (by decide)]
  rw [a0, a1, a2, rowOf_cast]
  rfl

/-- After region 3 its output holds the second layer's result. -/
theorem t3 : W8 m ρ c (Proc.devRef .tc main_v62) = X2 m c := by
  rw [W8_arr m ρ c 6, region3 (V7 m ρ) c]
  unfold out3 X2
  obtain ⟨-, -, -, -, s6, -⟩ := stay m ρ c main_v1 (by decide) (by decide) (by decide) (by decide) (by decide) (by decide) (by decide) (by decide) (by decide)
  obtain ⟨-, -, -, -, d6, -⟩ := stay m ρ c main_v3 (by decide) (by decide) (by decide) (by decide) (by decide) (by decide) (by decide) (by decide) (by decide)
  obtain ⟨-, -, -, -, -, i7, -⟩ := stay m ρ c main_v12 (by decide) (by decide) (by decide) (by decide) (by decide) (by decide) (by decide) (by decide) (by decide)
  obtain ⟨-, -, -, -, p6, -⟩ := stay m ρ c main_arg4 (by decide) (by decide) (by decide) (by decide) (by decide) (by decide) (by decide) (by decide) (by decide)
  obtain ⟨-, -, -, -, q6, -⟩ := stay m ρ c main_arg5 (by decide) (by decide) (by decide) (by decide) (by decide) (by decide) (by decide) (by decide) (by decide)
  obtain ⟨-, -, -, -, r6, -⟩ := stay m ρ c main_arg6 (by decide) (by decide) (by decide) (by decide) (by decide) (by decide) (by decide) (by decide) (by decide)
  have a0 : V7 m ρ c main_v54 = Cert.RefNet.agg (m ((c : Thread nD τ).loc main_arg1)) (H1 m c) := by
    refine (s3_v54 (W6 m ρ c)).trans ?_
    rw [s6, d6, src1, dst1, t2, aggK_eq]
  have a1 : V7 m ρ c main_v37 = X1 m c :=
    (keep_s3 (W6 m ρ c) main_v37 (by decide)).trans ((keep_r2 m ρ c main_v37 (by decide)).trans
      ((keep_s2 (W4 m ρ c) main_v37 (by decide)).trans (t1 m ρ c)))
  have a2 : V7 m ρ c main_v12 = Cert.ReferenceIdeal.Read.val_main_v12 (F := Ideal) (m ((c : Thread nD τ).loc main_arg1)) := i7.trans (inv1 m ρ c)
  have a3 : V7 m ρ c main_v56 = Cert.ReferenceIdeal.Read.val_main_v56 (F := Ideal) (m ((c : Thread nD τ).loc main_arg4)) := by
    refine (s3_v56 (W6 m ρ c)).trans ?_
    rw [p6, first m ρ c main_arg4 (by decide)]
  have a4 : V7 m ρ c main_v61 = shapeCast S1x128 (Cert.ReferenceIdeal.Read.val_main_v58 (F := Ideal) (m ((c : Thread nD τ).loc main_arg5))) shapeCasts_S128_S1x128 := by
    refine (s3_v61 (W6 m ρ c)).trans ?_
    rw [q6, first m ρ c main_arg5 (by decide)]
  have a5 : V7 m ρ c main_v60 = Cert.ReferenceIdeal.Read.val_main_v60 (F := Ideal) (m ((c : Thread nD τ).loc main_arg6)) := by
    refine (s3_v60 (W6 m ρ c)).trans ?_
    rw [r6, first m ρ c main_arg6 (by decide)]
  rw [a0, a1, a2, a3, a4, a5, rowOf_cast]
  rfl

/-- After the last region the program's result holds the network of the argument arrays. -/
theorem result : W10 m ρ c (Proc.devRef .tc main_v76)
    = net (n := 100000) (d := 128) (Cert.RefNet.agg (m ((c : Thread nD τ).loc main_arg1))) (Cert.ReferenceIdeal.Read.val_main_v12 (F := Ideal) (m ((c : Thread nD τ).loc main_arg1))) (m ((c : Thread nD τ).loc main_arg0))
        (Cert.ReferenceIdeal.Read.val_main_v23 (F := Ideal) (m ((c : Thread nD τ).loc main_arg2))) (Cert.ReferenceIdeal.Read.val_main_v22 (F := Ideal) (m ((c : Thread nD τ).loc main_arg3))) (Cert.ReferenceIdeal.Read.val_main_v41 (F := Ideal) (m ((c : Thread nD τ).loc main_arg4))) (Cert.ReferenceIdeal.Read.val_main_v16 (F := Ideal) (m ((c : Thread nD τ).loc main_arg5))) (Cert.ReferenceIdeal.Read.val_main_v46 (F := Ideal) (m ((c : Thread nD τ).loc main_arg6)))
        (Cert.ReferenceIdeal.Read.val_main_v65 (F := Ideal) (m ((c : Thread nD τ).loc main_arg2))) (Cert.ReferenceIdeal.Read.val_main_v64 (F := Ideal) (m ((c : Thread nD τ).loc main_arg3))) (Cert.ReferenceIdeal.Read.val_main_v83 (F := Ideal) (m ((c : Thread nD τ).loc main_arg4))) (Cert.ReferenceIdeal.Read.val_main_v58 (F := Ideal) (m ((c : Thread nD τ).loc main_arg5))) (Cert.ReferenceIdeal.Read.val_main_v88 (F := Ideal) (m ((c : Thread nD τ).loc main_arg6)))
        (Cert.ReferenceIdeal.Read.val_main_v109 (F := Ideal) (m ((c : Thread nD τ).loc main_arg7))) (m ((c : Thread nD τ).loc main_arg8)) (Cert.ReferenceIdeal.Read.val_main_v114 (F := Ideal) (m ((c : Thread nD τ).loc main_arg9))) := by
  rw [W10_arr m ρ c 6, region4 (V9 m ρ) c]
  unfold out4
  obtain ⟨-, -, -, -, -, -, s8, -⟩ := stay m ρ c main_v1 (by decide) (by decide) (by decide) (by decide) (by decide) (by decide) (by decide) (by decide) (by decide)
  obtain ⟨-, -, -, -, -, -, d8, -⟩ := stay m ρ c main_v3 (by decide) (by decide) (by decide) (by decide) (by decide) (by decide) (by decide) (by decide) (by decide)
  obtain ⟨-, -, -, -, -, -, -, i9, -⟩ := stay m ρ c main_v12 (by decide) (by decide) (by decide) (by decide) (by decide) (by decide) (by decide) (by decide) (by decide)
  obtain ⟨-, -, -, -, -, -, -, p9, -⟩ := stay m ρ c main_arg7 (by decide) (by decide) (by decide) (by decide) (by decide) (by decide) (by decide) (by decide) (by decide)
  obtain ⟨-, -, -, -, -, -, q8, -⟩ := stay m ρ c main_arg8 (by decide) (by decide) (by decide) (by decide) (by decide) (by decide) (by decide) (by decide) (by decide)
  obtain ⟨-, -, -, -, -, -, -, r9, -⟩ := stay m ρ c main_arg9 (by decide) (by decide) (by decide) (by decide) (by decide) (by decide) (by decide) (by decide) (by decide)
  have a0 : V9 m ρ c main_v74 = Cert.RefNet.agg (m ((c : Thread nD τ).loc main_arg1)) (X2 m c) := by
    refine (s4_v74 (W8 m ρ c)).trans ?_
    rw [s8, d8, src1, dst1, t3, aggK_eq]
  have a1 : V9 m ρ c main_v62 = X2 m c := (keep_s4 (W8 m ρ c) main_v62 (by decide)).trans (t3 m ρ c)
  have a2 : V9 m ρ c main_v12 = Cert.ReferenceIdeal.Read.val_main_v12 (F := Ideal) (m ((c : Thread nD τ).loc main_arg1)) := i9.trans (inv1 m ρ c)
  have a3 : V9 m ρ c main_arg7 = (m ((c : Thread nD τ).loc main_arg7)) := p9.trans (first m ρ c main_arg7 (by decide))
  have a4 : V9 m ρ c main_v75 = shapeCast S1x128 (m ((c : Thread nD τ).loc main_arg8)) shapeCasts_S128_S1x128 := by
    refine (s4_v75 (W8 m ρ c)).trans ?_
    rw [q8, first m ρ c main_arg8 (by decide)]
  have a5 : V9 m ρ c main_arg9 = (m ((c : Thread nD τ).loc main_arg9)) := r9.trans (first m ρ c main_arg9 (by decide))
  rw [a0, a1, a2, a3, a4, a5, rowOf_cast]
  rfl

end Cert.KerValue

end
-- ==== Proof.lean ====
/-
  The kernel program — five pipelined regions of a three-layer message-passing network, with the edge gathers and
  the scatter-adds on the host between them — against its whole-array reference, over the extended reals.

  Both programs compute the same network. The inverse degrees, the edge sources and targets, and the weight slices are
  the same host operations on both sides. A projection region computes, row block by row block, `relu` of a dense
  layer; a combination region the aggregate scaled by the inverse degrees through one weight matrix plus bias plus the
  features through another, the inner ones followed by a row normalisation and `relu`. Every entry of these layers
  depends on one row of the row-blocked inputs, so the row blocks written at the twenty grid points are the rows of
  the layer of the whole arrays, and they tile the output. A matrix product into a zero accumulator is the host's
  dot product, a lane sum the host's row sum, and a change of float format the identity, so no law beyond reading
  both sides at an index is needed and the precondition is never opened.
  The three frames are the generated frame runs (the reference's is its run with the result dropped); the ideal
  pass rewrote nothing, so the preservation claim is trivial.
-/
import proofs.«161229_j45835890983353_2_alg».proof.Defs
import proofs.«161229_j45835890983353_2_alg».proof.Proof.Gen.Kernel
import proofs.«161229_j45835890983353_2_alg».proof.Proof.Gen.Kernel.Skeleton
import proofs.«161229_j45835890983353_2_alg».proof.Proof.Gen.Kernel.Launch
import proofs.«161229_j45835890983353_2_alg».proof.Proof.Gen.Kernel.Points
import proofs.«161229_j45835890983353_2_alg».proof.Proof.Gen.Kernel.Frame
import proofs.«161229_j45835890983353_2_alg».proof.Proof.Gen.KernelIdeal
import proofs.«161229_j45835890983353_2_alg».proof.Proof.Gen.KernelIdeal.Skeleton
import proofs.«161229_j45835890983353_2_alg».proof.Proof.Gen.KernelIdeal.Launch
import proofs.«161229_j45835890983353_2_alg».proof.Proof.Gen.KernelIdeal.Points
import proofs.«161229_j45835890983353_2_alg».proof.Proof.Gen.KernelIdeal.Frame
import proofs.«161229_j45835890983353_2_alg».proof.Proof.Gen.ReferenceIdeal
import proofs.«161229_j45835890983353_2_alg».proof.Proof.Gen.Pre_finite_inputs
import proofs.«161229_j45835890983353_2_alg».proof.Proof.Gen.ReferenceIdeal.Run
import proofs.«161229_j45835890983353_2_alg».proof.Proof.Gen.ReferenceIdeal.Read
import proofs.«161229_j45835890983353_2_alg».proof.Proof.KerRun
import proofs.«161229_j45835890983353_2_alg».proof.Proof.KerValue
import proofs.«161229_j45835890983353_2_alg».proof.Proof.RefNet
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, the kernel program's result array and the reference's both end at
    the network of the argument arrays. -/
theorem algebraic : Cert.algebraic_KernelIdeal_ReferenceIdeal := by
  intro m ρ m' ρ' _ hagree
  refine ⟨fun c => Cert.KernelIdeal.Gen.W10 m ρ c (Proc.devRef .tc Cert.KernelIdeal.main_v76), Cert.KerRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v116_eq, h0, h1, h2, h3, h4, h5, h6, h7, h8, h9, Cert.RefNet.result_eq]
  exact (Cert.KerValue.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
